-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v119)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v119) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S500000 : Shape := ⟨1, ![500000]⟩
abbrev S2x200000 : Shape := ⟨2, ![2, 200000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg14 : FVec F S1 .f32) (main_v48 : IVec S_ 1) (main_v49 : FVec F S256x1 .f32) (main_v50 : FVec F S256x1 .f32) : IVec S_ 1 :=
  let main_v51 : IVec S256x1 1 := cmpf .olt main_v49 main_v50
  let main_c_19 : IVec S_ 1 := constantI S_ 1 1#1
  let main_v52 : IVec S_ 1 := (fun x v => Host.reduce IntOp.andi x v reducesTo_S256x1_S_d0_1 h_S_) main_v51 main_c_19
  let main_v53 : IVec S_ 1 := andi main_v48 main_v52
  let main_v54 : FVec F S1 .f32 := Host.absf main_arg14
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg10 : FVec F S256 .f32) (main_arg11 : FVec F S256x256 .f32) (main_arg12 : FVec F S256 .f32) (main_arg13 : FVec F S256x1 .f32) (main_arg14 : FVec F S1 .f32) (main_v33 : IVec S_ 1) : IVec S_ 1 :=
  let main_v34 : FVec F S256 .f32 := Host.absf main_arg10
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg11
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg12
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S256x1 .f32 := Host.absf main_arg13
  let main_cst_18 : FVec F S_ .f32 := constant S_ .f32 0x7F800000#32
  let main_v50 : FVec F S256x1 .f32 := broadcastInDim S256x1 ![] bcast_S_S256x1 main_cst_18
  fn_part3 (F := F) main_arg14 main_v48 main_v49 main_v50

def fn_part1 {F : FTy → Type} [FloatOps F] (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256x1 .f32) (main_arg14 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg7
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg8
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg9
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg10 main_arg11 main_arg12 main_arg13 main_arg14 main_v33

def fn {F : FTy → Type} [FloatOps F] (main_arg0 : FVec F S50000x128 .f32) (main_arg1 : IVec S500000 32) (main_arg2 : IVec S500000 32) (main_arg3 : IVec S2x200000 32) (main_arg4 : FVec F S50000x128 .f32) (main_arg5 : FVec F S256x256 .f32) (main_arg6 : FVec F S256 .f32) (main_arg7 : FVec F S256x256 .f32) (main_arg8 : FVec F S256 .f32) (main_arg9 : FVec F S256 .f32) (main_arg10 : FVec F S256 .f32) (main_arg11 : FVec F S256x256 .f32) (main_arg12 : FVec F S256 .f32) (main_arg13 : FVec F S256x1 .f32) (main_arg14 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg4
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S256x256 .f32 := Host.absf main_arg5
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg6
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg7 main_arg8 main_arg9 main_arg10 main_arg11 main_arg12 main_arg13 main_arg14 main_v13 main_v16
-- ==== Kernel.lean ====
abbrev S50000x128 : Shape := ⟨2, ![50000, 128]⟩
abbrev S500000 : Shape := ⟨1, ![500000]⟩
abbrev S2x200000 : Shape := ⟨2, ![2, 200000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S50000x256 : Shape := ⟨2, ![50000, 256]⟩
abbrev S_ : Shape := ⟨0, ![]⟩
abbrev S50000 : Shape := ⟨1, ![50000]⟩
abbrev S500000x1 : Shape := ⟨2, ![500000, 1]⟩
abbrev S2000x256 : Shape := ⟨2, ![2000, 256]⟩
abbrev S500000x256 : Shape := ⟨2, ![500000, 256]⟩
abbrev S50000x1 : Shape := ⟨2, ![50000, 1]⟩
abbrev S1x256 : Shape := ⟨2, ![1, 256]⟩
abbrev S1x200000 : Shape := ⟨2, ![1, 200000]⟩
abbrev S200000 : Shape := ⟨1, ![200000]⟩
abbrev S200000x1 : Shape := ⟨2, ![200000, 1]⟩
abbrev S200000x256 : Shape := ⟨2, ![200000, 256]⟩
abbrev S1x1 : Shape := ⟨2, ![1, 1]⟩
abbrev S2000x1 : Shape := ⟨2, ![2000, 1]⟩

abbrev nBuf : Space → Nat
  | .hbm => 161
  | .vmem => 28
  | .smem => 0
  | _ => 0

abbrev hbmTy0_0 (i : Nat) : BufTy := match i % 128 with
  | 0 => ⟨S50000x128, .f32⟩
  | 1 => ⟨S500000, .i32⟩
  | 2 => ⟨S500000, .i32⟩
  | 3 => ⟨S2x200000, .i32⟩
  | 4 => ⟨S50000x128, .f32⟩
  | 5 => ⟨S256x256, .f32⟩
  | 6 => ⟨S256, .f32⟩
  | 7 => ⟨S256x256, .f32⟩
  | 8 => ⟨S256, .f32⟩
  | 9 => ⟨S256, .f32⟩
  | 10 => ⟨S256, .f32⟩
  | 11 => ⟨S256x256, .f32⟩
  | 12 => ⟨S256, .f32⟩
  | 13 => ⟨S256x1, .f32⟩
  | 14 => ⟨S1, .f32⟩
  | 15 => ⟨S50000x256, .f32⟩
  | 16 => ⟨S_, .f32⟩
  | 17 => ⟨S500000, .f32⟩
  | 18 => ⟨S_, .f32⟩
  | 19 => ⟨S50000, .f32⟩
  | 20 => ⟨S500000x1, .i32⟩
  | 21 => ⟨S50000, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S50000x256, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000, .f32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000, .f32⟩
  | 47 => ⟨S500000, .f32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x256, .f32⟩
  | 57 => ⟨S500000x1, .f32⟩
  | 58 => ⟨S500000x256, .f32⟩
  | 59 => ⟨S500000x256, .f32⟩
  | 60 => ⟨S_, .f32⟩
  | 61 => ⟨S50000x256, .f32⟩
  | 62 => ⟨S500000x1, .i32⟩
  | 63 => ⟨S50000x256, .f32⟩
  | 64 => ⟨S50000, .f32⟩
  | 65 => ⟨S50000x1, .f32⟩
  | 66 => ⟨S50000x256, .f32⟩
  | 67 => ⟨S50000x256, .f32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S256, .f32⟩
  | 74 => ⟨S_, .f32⟩
  | 75 => ⟨S256, .f32⟩
  | 76 => ⟨S256, .f32⟩
  | 77 => ⟨S1x256, .f32⟩
  | 78 => ⟨S50000x256, .f32⟩
  | 79 => ⟨S50000x256, .f32⟩
  | 80 => ⟨S50000x256, .f32⟩
  | 81 => ⟨S_, .f32⟩
  | 82 => ⟨S256, .f32⟩
  | 83 => ⟨S_, .f32⟩
  | 84 => ⟨S256, .f32⟩
  | 85 => ⟨S256, .f32⟩
  | 86 => ⟨S1x256, .f32⟩
  | 87 => ⟨S1x256, .f32⟩
  | 88 => ⟨S1x256, .f32⟩
  | 89 => ⟨S1x256, .f32⟩
  | 90 => ⟨S50000x256, .f32⟩
  | 91 => ⟨S50000x256, .f32⟩
  | 92 => ⟨S_, .i32⟩
  | 93 => ⟨S500000, .i32⟩
  | 94 => ⟨S500000, .i1⟩
  | 95 => ⟨S_, .i32⟩
  | 96 => ⟨S500000, .i32⟩
  | 97 => ⟨S500000, .i32⟩
  | 98 => ⟨S500000, .i32⟩
  | 99 => ⟨S500000x1, .i32⟩
  | 100 => ⟨S500000, .f32⟩
  | 101 => ⟨S_, .i32⟩
  | 102 => ⟨S500000, .i32⟩
  | 103 => ⟨S500000, .i1⟩
  | 104 => ⟨S_, .i32⟩
  | 105 => ⟨S500000, .i32⟩
  | 106 => ⟨S500000, .i32⟩
  | 107 => ⟨S500000, .i32⟩
  | 108 => ⟨S500000x1, .i32⟩
  | 109 => ⟨S500000, .f32⟩
  | 110 => ⟨S500000, .f32⟩
  | 111 => ⟨S_, .i32⟩
  | 112 => ⟨S500000, .i32⟩
  | 113 => ⟨S500000, .i1⟩
  | 114 => ⟨S_, .i32⟩
  | 115 => ⟨S500000, .i32⟩
  | 116 => ⟨S500000, .i32⟩
  | 117 => ⟨S500000, .i32⟩
  | 118 => ⟨S500000x1, .i32⟩
  | 119 => ⟨S500000x256, .f32⟩
  | 120 => ⟨S500000x1, .f32⟩
  | 121 => ⟨S500000x256, .f32⟩
  | 122 => ⟨S500000x256, .f32⟩
  | 123 => ⟨S_, .f32⟩
  | 124 => ⟨S50000x256, .f32⟩
  | 125 => ⟨S500000x1, .i32⟩
  | 126 => ⟨S50000x256, .f32⟩
  | 127 => ⟨S50000, .f32⟩
  | _ => ⟨S50000x128, .f32⟩

abbrev hbmTy0_1 (i : Nat) : BufTy := match i % 128 with
  | 0 => ⟨S50000x1, .f32⟩
  | 1 => ⟨S50000x256, .f32⟩
  | 2 => ⟨S50000x256, .f32⟩
  | 3 => ⟨S50000x256, .f32⟩
  | 4 => ⟨S1x256, .f32⟩
  | 5 => ⟨S50000x256, .f32⟩
  | 6 => ⟨S50000x256, .f32⟩
  | 7 => ⟨S1x200000, .i32⟩
  | 8 => ⟨S200000, .i32⟩
  | 9 => ⟨S_, .i32⟩
  | 10 => ⟨S200000, .i32⟩
  | 11 => ⟨S200000, .i1⟩
  | 12 => ⟨S_, .i32⟩
  | 13 => ⟨S200000, .i32⟩
  | 14 => ⟨S200000, .i32⟩
  | 15 => ⟨S200000, .i32⟩
  | 16 => ⟨S200000x1, .i32⟩
  | 17 => ⟨S200000x256, .f32⟩
  | 18 => ⟨S1x200000, .i32⟩
  | 19 => ⟨S200000, .i32⟩
  | 20 => ⟨S_, .i32⟩
  | 21 => ⟨S200000, .i32⟩
  | 22 => ⟨S200000, .i1⟩
  | 23 => ⟨S_, .i32⟩
  | 24 => ⟨S200000, .i32⟩
  | 25 => ⟨S200000, .i32⟩
  | 26 => ⟨S200000, .i32⟩
  | 27 => ⟨S200000x1, .i32⟩
  | 28 => ⟨S200000x256, .f32⟩
  | 29 => ⟨S1x256, .f32⟩
  | 30 => ⟨S1x1, .f32⟩
  | 31 => ⟨S200000x1, .f32⟩
  | 32 => ⟨S200000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S256x256, .f32⟩
  | .local _ .vmem, ⟨23, _⟩ => ⟨S1x256, .f32⟩
  | .local _ .vmem, ⟨24, _⟩ => ⟨S256x1, .f32⟩
  | .local _ .vmem, ⟨25, _⟩ => ⟨S1x1, .f32⟩
  | .local _ .vmem, ⟨26, _⟩ => ⟨S2000x1, .f32⟩
  | .local _ .vmem, ⟨27, _⟩ => ⟨S2000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_c_5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_c_7 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_cst_12 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_c_13 : Ref sig .tc := ⟨.hbm, 92, rfl⟩
abbrev main_v62 : Ref sig .tc := ⟨.hbm, 93, rfl⟩
abbrev main_v63 : Ref sig .tc := ⟨.hbm, 94, rfl⟩
abbrev main_c_14 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_c_15 : Ref sig .tc := ⟨.hbm, 101, rfl⟩
abbrev main_v69 : Ref sig .tc := ⟨.hbm, 102, rfl⟩
abbrev main_v70 : Ref sig .tc := ⟨.hbm, 103, rfl⟩
abbrev main_c_16 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_c_17 : Ref sig .tc := ⟨.hbm, 111, rfl⟩
abbrev main_v77 : Ref sig .tc := ⟨.hbm, 112, rfl⟩
abbrev main_v78 : Ref sig .tc := ⟨.hbm, 113, rfl⟩
abbrev main_c_18 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_cst_19 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_20 : Ref sig .tc := ⟨.hbm, 137, rfl⟩
abbrev main_v100 : Ref sig .tc := ⟨.hbm, 138, rfl⟩
abbrev main_v101 : Ref sig .tc := ⟨.hbm, 139, rfl⟩
abbrev main_c_21 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_22 : Ref sig .tc := ⟨.hbm, 148, rfl⟩
abbrev main_v109 : Ref sig .tc := ⟨.hbm, 149, rfl⟩
abbrev main_v110 : Ref sig .tc := ⟨.hbm, 150, rfl⟩
abbrev main_c_23 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg5_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg3_0 : Ref sig .tc := ⟨.vmem, 23, rfl⟩
abbrev cc3_stg4_0 : Ref sig .tc := ⟨.vmem, 24, rfl⟩
abbrev cc3_stg5_0 : Ref sig .tc := ⟨.vmem, 25, rfl⟩
abbrev cc3_stg6_0 : Ref sig .tc := ⟨.vmem, 26, rfl⟩
abbrev cc3_stg6_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem5_0 : DmaSem sig := 11
abbrev cc1_sem5_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem3_0 : DmaSem sig := 23
abbrev cc3_sem4_0 : DmaSem sig := 24
abbrev cc3_sem5_0 : DmaSem sig := 25
abbrev cc3_sem6_0 : DmaSem sig := 26
abbrev cc3_sem6_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![100], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x256 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S256x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x1 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S2000x1 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

class Facts₀ : Prop where
  concatenates_S50000x128_S50000x128_S50000x256_d1 : Shape.Concatenates [S50000x128, S50000x128] S50000x256 1
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  bcast_S500000x1_S500000x256_0_1 : S500000x1.BroadcastsInDim S500000x256 (![0, 1] : Fin 2 → Fin S500000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  shapeCasts_S1_S1x1 : S1.ShapeCasts S1x1
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x1 : S1x1.Broadcasts S2000x1
  inb_S2000x1_S2000x1_0_0 : ∀ a, (![0, 0] : Fin 2 → Nat) a + S2000x1.size a ≤ S2000x1.size a
  h_S2000x1 : 0 < S2000x1.numel
  shapeCasts_S200000x1_S200000 : S200000x1.ShapeCasts S200000
  scatter_S50000_S500000x1_S500000_n_0_0_1_wf : ScatterDims.WF S50000 S500000x1 S500000 [] [0] [0] 1
  dot_S2000x256_S256x256_S2000x256_1_0_0_1_n_n_wf : DotDims.WF S2000x256 S256x256 S2000x256 [1] [0] [0] [1] [] []
  gather_S50000_S500000x1_S500000_n_0_n_n_0_1_1_wf : GatherDims.WF S50000 S500000x1 S500000 [] [0] [] [0] [] 1 ![1]
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  gather_S50000x256_S200000x1_S200000x256_1_0_n_n_0_1_1256_wf : GatherDims.WF S50000x256 S200000x1 S200000x256 [1] [0] [] [0] [] 1 ![1, 256]
  dot_S2000x256_S256x1_S2000x1_1_0_0_1_n_n_wf : DotDims.WF S2000x256 S256x1 S2000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x256.size a ≤ S1x256.size a
  hwx1_1 : ∀ i : grid1.Coords, EltTy.bits .f32 = 32 ∨ (Rect.block (s := S1x256) S1x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x256.size a ≤ S50000x256.size a
  hwx2_2 : ∀ i : grid2.Coords, EltTy.bits .f32 = 32 ∨ (Rect.block (s := S50000x256) S2000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S200000x256.size a
  hwx3_0 : ∀ i : grid3.Coords, EltTy.bits .f32 = 32 ∨ (Rect.block (s := S200000x256) S2000x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x256.size a ≤ S200000x256.size a
  hwx3_1 : ∀ i : grid3.Coords, EltTy.bits .f32 = 32 ∨ (Rect.block (s := S200000x256) S2000x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x256.size a ≤ S256x256.size a
  hwx3_2 : ∀ i : grid3.Coords, EltTy.bits .f32 = 32 ∨ (Rect.block (s := S256x256) S256x256.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x256.size a ≤ S1x256.size a
  hwx3_3 : ∀ i : grid3.Coords, EltTy.bits .f32 = 32 ∨ (Rect.block (s := S1x256) S1x256.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x1.size a ≤ S256x1.size a
  hwx3_4 : ∀ i : grid3.Coords, EltTy.bits .f32 = 32 ∨ (Rect.block (s := S256x1) S256x1.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x1.size a ≤ S1x1.size a
  hwx3_5 : ∀ i : grid3.Coords, EltTy.bits .f32 = 32 ∨ (Rect.block (s := S1x1) S1x1.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x1.size a ≤ S200000x1.size a
  hwx3_6 : ∀ i : grid3.Coords, EltTy.bits .f32 = 32 ∨ (Rect.block (s := S200000x1) S2000x1.size (cc3_transform_6 i) (hinb3_6 i)).WholeWords (EltTy.packing .f32)

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def dot_S2000x256_S256x1_S2000x1_1_0_0_1_n_n : DotDims S2000x256 S256x1 S2000x1 where
  lhsContracting := [1]
  rhsContracting := [0]
  lhsNonContracting := [0]
  rhsNonContracting := [1]
  lhsBatch := []
  rhsBatch := []
  wf := dot_S2000x256_S256x1_S2000x1_1_0_0_1_n_n_wf

abbrev win0_0 : Pipeline.Window sig grid0 :=
  Pipeline.Window.ofSpec (Memref.whole main_v0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg5) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v56) S1x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v57) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v58) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v59) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v60) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v60) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S2000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v106) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v115) S2000x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg11) S256x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v116) S1x256.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg13) S256x1.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v117) S1x1.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v118) S2000x1.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

class Facts : Prop extends Facts₀ where

variable [Facts]
-- ==== ReferenceIdeal.lean ====
abbrev S50000x128 : Shape := ⟨2, ![50000, 128]⟩
abbrev S500000 : Shape := ⟨1, ![500000]⟩
abbrev S2x200000 : Shape := ⟨2, ![2, 200000]⟩
abbrev S256x256 : Shape := ⟨2, ![256, 256]⟩
abbrev S256 : Shape := ⟨1, ![256]⟩
abbrev S256x1 : Shape := ⟨2, ![256, 1]⟩
abbrev S1 : Shape := ⟨1, ![1]⟩
abbrev S50000x256 : Shape := ⟨2, ![50000, 256]⟩
abbrev S_ : Shape := ⟨0, ![]⟩
abbrev S50000 : Shape := ⟨1, ![50000]⟩
abbrev S500000x1 : Shape := ⟨2, ![500000, 1]⟩
abbrev S500000x256 : Shape := ⟨2, ![500000, 256]⟩
abbrev S50000x1 : Shape := ⟨2, ![50000, 1]⟩
abbrev S1x256 : Shape := ⟨2, ![1, 256]⟩
abbrev S1x200000 : Shape := ⟨2, ![1, 200000]⟩
abbrev S200000 : Shape := ⟨1, ![200000]⟩
abbrev S200000x1 : Shape := ⟨2, ![200000, 1]⟩
abbrev S200000x256 : Shape := ⟨2, ![200000, 256]⟩
abbrev S1x1 : Shape := ⟨2, ![1, 1]⟩

abbrev nBuf : Space → Nat
  | .hbm => 192
  | .vmem => 0
  | .smem => 0
  | _ => 0

abbrev hbmTy0_0 (i : Nat) : BufTy := match i % 128 with
  | 0 => ⟨S50000x128, .f32⟩
  | 1 => ⟨S500000, .i32⟩
  | 2 => ⟨S500000, .i32⟩
  | 3 => ⟨S2x200000, .i32⟩
  | 4 => ⟨S50000x128, .f32⟩
  | 5 => ⟨S256x256, .f32⟩
  | 6 => ⟨S256, .f32⟩
  | 7 => ⟨S256x256, .f32⟩
  | 8 => ⟨S256, .f32⟩
  | 9 => ⟨S256, .f32⟩
  | 10 => ⟨S256, .f32⟩
  | 11 => ⟨S256x256, .f32⟩
  | 12 => ⟨S256, .f32⟩
  | 13 => ⟨S256x1, .f32⟩
  | 14 => ⟨S1, .f32⟩
  | 15 => ⟨S50000x256, .f32⟩
  | 16 => ⟨S_, .f32⟩
  | 17 => ⟨S500000, .f32⟩
  | 18 => ⟨S_, .f32⟩
  | 19 => ⟨S50000, .f32⟩
  | 20 => ⟨S500000x1, .i32⟩
  | 21 => ⟨S50000, .f32⟩
  | 22 => ⟨S_, .f32⟩
  | 23 => ⟨S50000, .f32⟩
  | 24 => ⟨S50000, .f32⟩
  | 25 => ⟨S_, .f32⟩
  | 26 => ⟨S50000, .f32⟩
  | 27 => ⟨S50000, .f32⟩
  | 28 => ⟨S50000x256, .f32⟩
  | 29 => ⟨S_, .i32⟩
  | 30 => ⟨S500000, .i32⟩
  | 31 => ⟨S500000, .i1⟩
  | 32 => ⟨S_, .i32⟩
  | 33 => ⟨S500000, .i32⟩
  | 34 => ⟨S500000, .i32⟩
  | 35 => ⟨S500000, .i32⟩
  | 36 => ⟨S500000x1, .i32⟩
  | 37 => ⟨S500000, .f32⟩
  | 38 => ⟨S_, .i32⟩
  | 39 => ⟨S500000, .i32⟩
  | 40 => ⟨S500000, .i1⟩
  | 41 => ⟨S_, .i32⟩
  | 42 => ⟨S500000, .i32⟩
  | 43 => ⟨S500000, .i32⟩
  | 44 => ⟨S500000, .i32⟩
  | 45 => ⟨S500000x1, .i32⟩
  | 46 => ⟨S500000, .f32⟩
  | 47 => ⟨S500000, .f32⟩
  | 48 => ⟨S_, .i32⟩
  | 49 => ⟨S500000, .i32⟩
  | 50 => ⟨S500000, .i1⟩
  | 51 => ⟨S_, .i32⟩
  | 52 => ⟨S500000, .i32⟩
  | 53 => ⟨S500000, .i32⟩
  | 54 => ⟨S500000, .i32⟩
  | 55 => ⟨S500000x1, .i32⟩
  | 56 => ⟨S500000x256, .f32⟩
  | 57 => ⟨S500000x1, .f32⟩
  | 58 => ⟨S500000x256, .f32⟩
  | 59 => ⟨S500000x256, .f32⟩
  | 60 => ⟨S_, .f32⟩
  | 61 => ⟨S50000x256, .f32⟩
  | 62 => ⟨S500000x1, .i32⟩
  | 63 => ⟨S50000x256, .f32⟩
  | 64 => ⟨S50000, .f32⟩
  | 65 => ⟨S50000x1, .f32⟩
  | 66 => ⟨S50000x256, .f32⟩
  | 67 => ⟨S50000x256, .f32⟩
  | 68 => ⟨S50000x256, .f32⟩
  | 69 => ⟨S1x256, .f32⟩
  | 70 => ⟨S50000x256, .f32⟩
  | 71 => ⟨S50000x256, .f32⟩
  | 72 => ⟨S_, .f32⟩
  | 73 => ⟨S256, .f32⟩
  | 74 => ⟨S_, .f32⟩
  | 75 => ⟨S256, .f32⟩
  | 76 => ⟨S256, .f32⟩
  | 77 => ⟨S1x256, .f32⟩
  | 78 => ⟨S50000x256, .f32⟩
  | 79 => ⟨S50000x256, .f32⟩
  | 80 => ⟨S50000x256, .f32⟩
  | 81 => ⟨S_, .f32⟩
  | 82 => ⟨S256, .f32⟩
  | 83 => ⟨S_, .f32⟩
  | 84 => ⟨S256, .f32⟩
  | 85 => ⟨S256, .f32⟩
  | 86 => ⟨S1x256, .f32⟩
  | 87 => ⟨S50000x256, .f32⟩
  | 88 => ⟨S50000x256, .f32⟩
  | 89 => ⟨S_, .f32⟩
  | 90 => ⟨S256, .f32⟩
  | 91 => ⟨S256, .f32⟩
  | 92 => ⟨S256, .f32⟩
  | 93 => ⟨S1x256, .f32⟩
  | 94 => ⟨S50000x256, .f32⟩
  | 95 => ⟨S50000x256, .f32⟩
  | 96 => ⟨S1x256, .f32⟩
  | 97 => ⟨S50000x256, .f32⟩
  | 98 => ⟨S50000x256, .f32⟩
  | 99 => ⟨S1x256, .f32⟩
  | 100 => ⟨S50000x256, .f32⟩
  | 101 => ⟨S50000x256, .f32⟩
  | 102 => ⟨S_, .f32⟩
  | 103 => ⟨S50000x256, .f32⟩
  | 104 => ⟨S50000x256, .f32⟩
  | 105 => ⟨S50000x256, .f32⟩
  | 106 => ⟨S_, .i32⟩
  | 107 => ⟨S500000, .i32⟩
  | 108 => ⟨S500000, .i1⟩
  | 109 => ⟨S_, .i32⟩
  | 110 => ⟨S500000, .i32⟩
  | 111 => ⟨S500000, .i32⟩
  | 112 => ⟨S500000, .i32⟩
  | 113 => ⟨S500000x1, .i32⟩
  | 114 => ⟨S500000, .f32⟩
  | 115 => ⟨S_, .i32⟩
  | 116 => ⟨S500000, .i32⟩
  | 117 => ⟨S500000, .i1⟩
  | 118 => ⟨S_, .i32⟩
  | 119 => ⟨S500000, .i32⟩
  | 120 => ⟨S500000, .i32⟩
  | 121 => ⟨S500000, .i32⟩
  | 122 => ⟨S500000x1, .i32⟩
  | 123 => ⟨S500000, .f32⟩
  | 124 => ⟨S500000, .f32⟩
  | 125 => ⟨S_, .i32⟩
  | 126 => ⟨S500000, .i32⟩
  | 127 => ⟨S500000, .i1⟩
  | _ => ⟨S50000x128, .f32⟩

abbrev hbmTy0_1 (i : Nat) : BufTy := match i % 128 with
  | 0 => ⟨S_, .i32⟩
  | 1 => ⟨S500000, .i32⟩
  | 2 => ⟨S500000, .i32⟩
  | 3 => ⟨S500000, .i32⟩
  | 4 => ⟨S500000x1, .i32⟩
  | 5 => ⟨S500000x256, .f32⟩
  | 6 => ⟨S500000x1, .f32⟩
  | 7 => ⟨S500000x256, .f32⟩
  | 8 => ⟨S500000x256, .f32⟩
  | 9 => ⟨S_, .f32⟩
  | 10 => ⟨S50000x256, .f32⟩
  | 11 => ⟨S500000x1, .i32⟩
  | 12 => ⟨S50000x256, .f32⟩
  | 13 => ⟨S50000, .f32⟩
  | 14 => ⟨S50000x1, .f32⟩
  | 15 => ⟨S50000x256, .f32⟩
  | 16 => ⟨S50000x256, .f32⟩
  | 17 => ⟨S50000x256, .f32⟩
  | 18 => ⟨S1x256, .f32⟩
  | 19 => ⟨S50000x256, .f32⟩
  | 20 => ⟨S50000x256, .f32⟩
  | 21 => ⟨S1x200000, .i32⟩
  | 22 => ⟨S200000, .i32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000x256, .f32⟩
  | 32 => ⟨S1x200000, .i32⟩
  | 33 => ⟨S200000, .i32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S200000x256, .f32⟩
  | 43 => ⟨S200000x256, .f32⟩
  | 44 => ⟨S200000x256, .f32⟩
  | 45 => ⟨S1x256, .f32⟩
  | 46 => ⟨S200000x256, .f32⟩
  | 47 => ⟨S200000x256, .f32⟩
  | 48 => ⟨S_, .f32⟩
  | 49 => ⟨S200000x256, .f32⟩
  | 50 => ⟨S200000x256, .f32⟩
  | 51 => ⟨S200000x1, .f32⟩
  | 52 => ⟨S1x1, .f32⟩
  | 53 => ⟨S200000x1, .f32⟩
  | 54 => ⟨S200000x1, .f32⟩
  | 55 => ⟨S200000x1, .f32⟩
  | 56 => ⟨S200000x1, .f32⟩
  | 57 => ⟨S_, .f32⟩
  | 58 => ⟨S200000x1, .f32⟩
  | 59 => ⟨S200000x1, .f32⟩
  | 60 => ⟨S_, .f32⟩
  | 61 => ⟨S200000x1, .f32⟩
  | 62 => ⟨S200000x1, .f32⟩
  | 63 => ⟨S200000, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_cst_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_cst_2 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c : Ref sig .tc := ⟨.hbm, 29, rfl⟩
abbrev main_v10 : Ref sig .tc := ⟨.hbm, 30, rfl⟩
abbrev main_v11 : Ref sig .tc := ⟨.hbm, 31, rfl⟩
abbrev main_c_3 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c_4 : Ref sig .tc := ⟨.hbm, 38, rfl⟩
abbrev main_v17 : Ref sig .tc := ⟨.hbm, 39, rfl⟩
abbrev main_v18 : Ref sig .tc := ⟨.hbm, 40, rfl⟩
abbrev main_c_5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_c_6 : Ref sig .tc := ⟨.hbm, 48, rfl⟩
abbrev main_v25 : Ref sig .tc := ⟨.hbm, 49, rfl⟩
abbrev main_v26 : Ref sig .tc := ⟨.hbm, 50, rfl⟩
abbrev main_c_7 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_8 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_9 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_11 : Ref sig .tc := ⟨.hbm, 81, rfl⟩
abbrev main_v53 : Ref sig .tc := ⟨.hbm, 82, rfl⟩
abbrev main_cst_12 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_13 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_call0_cst : Ref sig .tc := ⟨.hbm, 102, rfl⟩
abbrev main_call0_v0 : Ref sig .tc := ⟨.hbm, 103, rfl⟩
abbrev main_v71 : Ref sig .tc := ⟨.hbm, 104, rfl⟩
abbrev main_v72 : Ref sig .tc := ⟨.hbm, 105, rfl⟩
abbrev main_c_14 : Ref sig .tc := ⟨.hbm, 106, rfl⟩
abbrev main_v73 : Ref sig .tc := ⟨.hbm, 107, rfl⟩
abbrev main_v74 : Ref sig .tc := ⟨.hbm, 108, rfl⟩
abbrev main_c_15 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_c_16 : Ref sig .tc := ⟨.hbm, 115, rfl⟩
abbrev main_v80 : Ref sig .tc := ⟨.hbm, 116, rfl⟩
abbrev main_v81 : Ref sig .tc := ⟨.hbm, 117, rfl⟩
abbrev main_c_17 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_c_18 : Ref sig .tc := ⟨.hbm, 125, rfl⟩
abbrev main_v88 : Ref sig .tc := ⟨.hbm, 126, rfl⟩
abbrev main_v89 : Ref sig .tc := ⟨.hbm, 127, rfl⟩
abbrev main_c_19 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_cst_20 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_c_21 : Ref sig .tc := ⟨.hbm, 151, rfl⟩
abbrev main_v111 : Ref sig .tc := ⟨.hbm, 152, rfl⟩
abbrev main_v112 : Ref sig .tc := ⟨.hbm, 153, rfl⟩
abbrev main_c_22 : Ref sig .tc := ⟨.hbm, 154, rfl⟩
abbrev main_v113 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_c_23 : Ref sig .tc := ⟨.hbm, 162, rfl⟩
abbrev main_v120 : Ref sig .tc := ⟨.hbm, 163, rfl⟩
abbrev main_v121 : Ref sig .tc := ⟨.hbm, 164, rfl⟩
abbrev main_c_24 : Ref sig .tc := ⟨.hbm, 165, rfl⟩
abbrev main_v122 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_call1_cst : Ref sig .tc := ⟨.hbm, 176, rfl⟩
abbrev main_call1_v0 : Ref sig .tc := ⟨.hbm, 177, rfl⟩
abbrev main_v132 : Ref sig .tc := ⟨.hbm, 178, rfl⟩
abbrev main_v133 : Ref sig .tc := ⟨.hbm, 179, rfl⟩
abbrev main_v134 : Ref sig .tc := ⟨.hbm, 180, rfl⟩
abbrev main_v135 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_cst_25 : Ref sig .tc := ⟨.hbm, 185, rfl⟩
abbrev main_v139 : Ref sig .tc := ⟨.hbm, 186, rfl⟩
abbrev main_v140 : Ref sig .tc := ⟨.hbm, 187, rfl⟩
abbrev main_cst_26 : Ref sig .tc := ⟨.hbm, 188, rfl⟩
abbrev main_v141 : Ref sig .tc := ⟨.hbm, 189, rfl⟩
abbrev main_v142 : Ref sig .tc := ⟨.hbm, 190, rfl⟩
abbrev main_v143 : Ref sig .tc := ⟨.hbm, 191, rfl⟩

abbrev nD : Nat := 1
abbrev τ : Topo := Topo.v7x

variable {F : FTy → Type} [FloatOps F]

class Facts₀ : Prop where
  concatenates_S50000x128_S50000x128_S50000x256_d1 : Shape.Concatenates [S50000x128, S50000x128] S50000x256 1
  bcast_S_S500000 : S_.BroadcastsInDim S500000 (![] : Fin 0 → Fin S500000.rank)
  bcast_S_S50000 : S_.BroadcastsInDim S50000 (![] : Fin 0 → Fin S50000.rank)
  bcast_S500000_S500000x1_0 : S500000.BroadcastsInDim S500000x1 (![0] : Fin 1 → Fin S500000x1.rank)
  bcast_S500000x1_S500000x256_0_1 : S500000x1.BroadcastsInDim S500000x256 (![0, 1] : Fin 2 → Fin S500000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  reducesTo_S50000x256_S256_d0 : S50000x256.ReducesTo [0] S256
  h_S_ : 0 < S_.numel
  bcast_S_S256 : S_.BroadcastsInDim S256 (![] : Fin 0 → Fin S256.rank)
  slices_S2x200000_S1x200000_0_0 : S2x200000.Slices ![0, 0] S1x200000
  shapeCasts_S1x200000_S200000 : S1x200000.ShapeCasts S200000
  bcast_S_S200000 : S_.BroadcastsInDim S200000 (![] : Fin 0 → Fin S200000.rank)
  bcast_S200000_S200000x1_0 : S200000.BroadcastsInDim S200000x1 (![0] : Fin 1 → Fin S200000x1.rank)
  slices_S2x200000_S1x200000_1_0 : S2x200000.Slices ![1, 0] S1x200000
  bcast_S1x256_S200000x256_0_1 : S1x256.BroadcastsInDim S200000x256 (![0, 1] : Fin 2 → Fin S200000x256.rank)
  bcast_S_S200000x256 : S_.BroadcastsInDim S200000x256 (![] : Fin 0 → Fin S200000x256.rank)
  bcast_S1_S1x1_1 : S1.BroadcastsInDim S1x1 (![1] : Fin 1 → Fin S1x1.rank)
  bcast_S1x1_S200000x1_0_1 : S1x1.BroadcastsInDim S200000x1 (![0, 1] : Fin 2 → Fin S200000x1.rank)
  bcast_S_S200000x1 : S_.BroadcastsInDim S200000x1 (![] : Fin 0 → Fin S200000x1.rank)
  shapeCasts_S200000x1_S200000 : S200000x1.ShapeCasts S200000
  scatter_S50000_S500000x1_S500000_n_0_0_1_wf : ScatterDims.WF S50000 S500000x1 S500000 [] [0] [0] 1
  dot_S50000x256_S256x256_S50000x256_1_0_0_1_n_n_wf : DotDims.WF S50000x256 S256x256 S50000x256 [1] [0] [0] [1] [] []
  gather_S50000_S500000x1_S500000_n_0_n_n_0_1_1_wf : GatherDims.WF S50000 S500000x1 S500000 [] [0] [] [0] [] 1 ![1]
  gather_S50000x256_S500000x1_S500000x256_1_0_n_n_0_1_1256_wf : GatherDims.WF S50000x256 S500000x1 S500000x256 [1] [0] [] [0] [] 1 ![1, 256]
  scatter_S50000x256_S500000x1_S500000x256_1_0_0_1_wf : ScatterDims.WF S50000x256 S500000x1 S500000x256 [1] [0] [0] 1
  gather_S50000x256_S200000x1_S200000x256_1_0_n_n_0_1_1256_wf : GatherDims.WF S50000x256 S200000x1 S200000x256 [1] [0] [] [0] [] 1 ![1, 256]
  dot_S200000x256_S256x256_S200000x256_1_0_0_1_n_n_wf : DotDims.WF S200000x256 S256x256 S200000x256 [1] [0] [0] [1] [] []
  dot_S200000x256_S256x1_S200000x1_1_0_0_1_n_n_wf : DotDims.WF S200000x256 S256x1 S200000x1 [1] [0] [0] [1] [] []

variable [Facts₀]

def scatter_S50000_S500000x1_S500000_n_0_0_1 : ScatterDims S50000 S500000x1 S500000 where
  updateWindowDims := []
  insertedWindowDims := [0]
  scatterDimsToOperandDims := [0]
  indexVectorDim := 1
  wf := scatter_S50000_S500000x1_S500000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000_S500000x1_S500000_n_0_n_n_0_1_1 : GatherDims S50000 S500000x1 S500000 where
  offsetDims := []
  collapsedSliceDims := [0]
  operandBatchingDims := []
  startIndicesBatchingDims := []
  startIndexMap := [0]
  indexVectorDim := 1
  sliceSizes := ![1]
  wf := gather_S50000_S500000x1_S500000_n_0_n_n_0_1_1_wf
def gather_S50000x256_S500000x1_S500000x256_1_0_n_n_0_1_1256 : GatherDims S50000x256 S500000x1 S500000x256 where
  offsetDims := [1]
  collapsedSliceDims := [0]
  operandBatchingDims := []
  startIndicesBatchingDims := []
  startIndexMap := [0]
  indexVectorDim := 1
  sliceSizes := ![1, 256]
  wf := gather_S50000x256_S500000x1_S500000x256_1_0_n_n_0_1_1256_wf
def scatter_S50000x256_S500000x1_S500000x256_1_0_0_1 : ScatterDims S50000x256 S500000x1 S500000x256 where
  updateWindowDims := [1]
  insertedWindowDims := [0]
  scatterDimsToOperandDims := [0]
  indexVectorDim := 1
  wf := scatter_S50000x256_S500000x1_S500000x256_1_0_0_1_wf
def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def dot_S200000x256_S256x1_S200000x1_1_0_0_1_n_n : DotDims S200000x256 S256x1 S200000x1 where
  lhsContracting := [1]
  rhsContracting := [0]
  lhsNonContracting := [0]
  rhsNonContracting := [1]
  lhsBatch := []
  rhsBatch := []
  wf := dot_S200000x256_S256x1_S200000x1_1_0_0_1_n_n_wf

class Facts : Prop extends Facts₀ where

variable [Facts]
-- ==== Proof.KernelRun.lean ====
/-
  The whole run of the program with the four dense stages, with its result named.

  The program is a chain of eight segments: stretches of array operations on whole arrays alternate with four
  pipelined stages, each of which walks a grid of row blocks, fetching the blocks of its operands, computing, and
  writing its result block back. The contents of every array at every boundary between segments is a fold from the
  launch memory: a stretch applies its operations in order; a pipelined stage leaves its operand arrays as they were
  and its result array at what the write-backs of all the grid points leave. The frame of the program — it
  terminates, faults nowhere, and ends with its argument arrays as launched — is read off the last boundary's
  contents. Here the same final state is read once more, at the array the program returns: it holds the last
  boundary's contents of that array. What those contents are, as a function of the arguments, is the business of the
  other modules.
-/
import proofs.«109340_j53635551592510_1_alg».proof.Proof.Gen.KernelIdeal.Frame

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the returned array ends at the last
    boundary's contents of its buffer, and every argument array ends as launched. -/
theorem run : θ_run defs (onTc (τ := τ) (main (F := F))) ⟨m, fun _ => 0, ρ⟩ (fun r => ∀ c : Dev nD,
      r.2.mem ((c.tc : Thread nD τ).loc main_v119) = W8 m ρ c (Proc.devRef .tc main_v119)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v119 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c),
       (h c _ (mem_uc main_arg13 (by decide))).trans (W8_main_arg13 m ρ c),
       (h c _ (mem_uc main_arg14 (by decide))).trans (W8_main_arg14 m ρ c)⟩)

end Cert.KernelIdeal.Whole

end
-- ==== Proof.Spec.lean ====
/-
  The mathematics of the two programs' dense stages, as functions on extended reals.

  A graph-convolution layer multiplies the node features by a weight matrix, mixes rows along the edges, and adds a
  bias; between the two layers every feature column is normalised by its batch mean and variance, scaled, shifted and
  clipped below at zero; the link predictor multiplies the two endpoint rows of an edge elementwise and sends the
  product through a two-layer perceptron and the logistic function. Row mixing and the batch statistics are written by
  both programs with the same operations; the three dense stages below are what one of them computes block of rows by
  block of rows and the other on whole arrays.

  Everything is stated over arrays indexed by a row and a column, with the float words that occur (the variance
  offset and zero) kept as words: both programs hold the same words, so they are never evaluated.
-/
import Idealize.ShloMosaic.PureOps.Ideal
import Idealize.ShloMosaic.Lib.ValueIdx

noncomputable section

namespace Cert.GcnSpec

open Idealize.ShloMosaic Idealize.ShloMosaic.ValueIdx

/-- An array of extended reals with `a` rows and `b` columns. -/
abbrev Mat (a b : Nat) : Type := (⟨2, ![a, b]⟩ : Shape).Idx → EReal

/-- The row of an index, as a number below the row count. -/
abbrev rowOf {a b : Nat} (i : (⟨2, ![a, b]⟩ : Shape).Idx) : Fin a := ⟨(i 0).val, idx2_lt0 i⟩
/-- The column of an index, as a number below the column count. -/
abbrev colOf {a b : Nat} (i : (⟨2, ![a, b]⟩ : Shape).Idx) : Fin b := ⟨(i 1).val, idx2_lt1 i⟩

/-- The variance offset of the normalisation, as the float word both programs hold. -/
abbrev epsWord : EReal := Ideal.ofBits .f32 0x3727C5AC#32
/-- Zero, as the float word both programs hold. -/
abbrev zeroWord : EReal := Ideal.ofBits .f32 0x00000000#32

/-- The matrix product: entry (r, q) is the sum over t of h(r, t) · w(t, q). -/
def mm {n k p : Nat} (h : Mat n k) (w : Mat k p) : Mat n p :=
  fun i => ∑ t : Fin k, h (ix2 (rowOf i) t) * w (ix2 t (colOf i))

/-- Normalise every column by its mean and variance, scale, shift, and clip below at zero:
    entry (r, q) is max ((h(r, q) − mean q) · (var q + ε)^(−1/2) · γ q + β q, 0). -/
def bnRelu {n d : Nat} (h : Mat n d) (mean var gamma beta : Fin d → EReal) : Mat n d :=
  fun i => max ((h i - mean (colOf i)) * Ideal.rsqrt (var (colOf i) + epsWord) * gamma (colOf i) + beta (colOf i)) zeroWord

/-- The hidden layer of the link predictor: the product of the two endpoint rows through the first weight matrix,
    plus its bias, clipped below at zero. -/
def hidden {n d : Nat} (a b : Mat n d) (w1 : Mat d d) (b1 : Fin d → EReal) : Mat n d :=
  fun j => max (mm (fun j' => a j' * b j') w1 j + b1 (colOf j)) zeroWord

/-- The link predictor: the hidden layer against the second weight column, plus its bias, through the logistic
    function 1 / (1 + e^(−x)). -/
def predictor {n d : Nat} (a b : Mat n d) (w1 : Mat d d) (b1 : Fin d → EReal) (w2 : Mat d 1) (b2 : EReal) : Mat n 1 :=
  fun i => Ideal.logistic (mm (hidden a b w1 b1) w2 i + b2)

end Cert.GcnSpec

end
-- ==== Proof.HostFeatures.lean ====
/-
  The first stretch of whole-array operations, before the first dense stage.

  It joins the learned embedding and the input features side by side into one feature array, counts every node's
  incoming edges by a scatter-add of ones, adds one for the self loop, and raises the count to the power −1/2. The
  other program begins with the very same operations, so each array this stretch leaves is, as a function of the
  arrays it starts from, the function the other program's reading names for the same step; and the stretch writes
  none of the argument arrays.
-/
import proofs.«109340_j53635551592510_1_alg».proof.Proof.Gen.KernelIdeal.Frame
import proofs.«109340_j53635551592510_1_alg».proof.Proof.Gen.ReferenceIdeal.Read

noncomputable section

namespace Cert.KernelIdeal.HostFeatures

open Idealize.ShloMosaic Idealize.ShloMosaic.TcCoe Idealize.SL.Sem Idealize.ShloMosaic.StableHlo
open Cert.KernelIdeal Cert.KernelIdeal.Gen
open Cert.ReferenceIdeal.Read (val_main_v0 val_main_v8)

variable (W : Valuation τ sig (Elt Ideal))

/-- The feature array: the embedding columns followed by the input columns. -/
theorem features : StableHlo.after (hostOps0 (F := Ideal)) W (Proc.devRef .tc main_v0)
    = val_main_v0 (F := Ideal) (W (Proc.devRef .tc main_arg0)) (W (Proc.devRef .tc main_arg4)) := by
  after_results
  rfl

/-- The degree scale: (1 + number of incoming edges)^(−1/2), node by node. -/
theorem degScale : StableHlo.after (hostOps0 (F := Ideal)) W (Proc.devRef .tc main_v8)
    = val_main_v8 (F := Ideal) (W (Proc.devRef .tc main_arg1)) := by
  after_results
  rfl

/-- The stretch writes no argument array. -/
theorem kept_arg1 : StableHlo.after (hostOps0 (F := Ideal)) W (Proc.devRef .tc main_arg1) = W (Proc.devRef .tc main_arg1) := by
  after_results
theorem kept_arg2 : StableHlo.after (hostOps0 (F := Ideal)) W (Proc.devRef .tc main_arg2) = W (Proc.devRef .tc main_arg2) := by
  after_results
theorem kept_arg3 : StableHlo.after (hostOps0 (F := Ideal)) W (Proc.devRef .tc main_arg3) = W (Proc.devRef .tc main_arg3) := by
  after_results
theorem kept_arg5 : StableHlo.after (hostOps0 (F := Ideal)) W (Proc.devRef .tc main_arg5) = W (Proc.devRef .tc main_arg5) := by
  after_results
theorem kept_arg6 : StableHlo.after (hostOps0 (F := Ideal)) W (Proc.devRef .tc main_arg6) = W (Proc.devRef .tc main_arg6) := by
  after_results
theorem kept_arg7 : StableHlo.after (hostOps0 (F := Ideal)) W (Proc.devRef .tc main_arg7) = W (Proc.devRef .tc main_arg7) := by
  after_results
theorem kept_arg8 : StableHlo.after (hostOps0 (F := Ideal)) W (Proc.devRef .tc main_arg8) = W (Proc.devRef .tc main_arg8) := by
  after_results
theorem kept_arg9 : StableHlo.after (hostOps0 (F := Ideal)) W (Proc.devRef .tc main_arg9) = W (Proc.devRef .tc main_arg9) := by
  after_results
theorem kept_arg10 : StableHlo.after (hostOps0 (F := Ideal)) W (Proc.devRef .tc main_arg10) = W (Proc.devRef .tc main_arg10) := by
  after_results
theorem kept_arg11 : StableHlo.after (hostOps0 (F := Ideal)) W (Proc.devRef .tc main_arg11) = W (Proc.devRef .tc main_arg11) := by
  after_results
theorem kept_arg12 : StableHlo.after (hostOps0 (F := Ideal)) W (Proc.devRef .tc main_arg12) = W (Proc.devRef .tc main_arg12) := by
  after_results
theorem kept_arg13 : StableHlo.after (hostOps0 (F := Ideal)) W (Proc.devRef .tc main_arg13) = W (Proc.devRef .tc main_arg13) := by
  after_results
theorem kept_arg14 : StableHlo.after (hostOps0 (F := Ideal)) W (Proc.devRef .tc main_arg14) = W (Proc.devRef .tc main_arg14) := by
  after_results

end Cert.KernelIdeal.HostFeatures

end
-- ==== Proof.HostMix1.lean ====
/-
  The second stretch of whole-array operations: the first layer's row mixing and bias, and the batch statistics.

  Given the projected features, every edge carries its source row scaled by the product of the two endpoints' degree
  scales; the rows are summed into their target nodes by a scatter-add; every node adds its own row scaled by the
  square of its degree scale; the bias is added to every row. Each column's mean is its sum over all rows divided by
  the row count, and its variance the mean of the squared deviations. The stretch ends by laying the means, the
  variances and the two learned vectors out as single rows for the normalising stage. The other program applies the
  same operations to its own projected features, so once the projected features and the degree scales agree, so do
  the mixed features, the means and the variances, entry by entry.
-/
import proofs.«109340_j53635551592510_1_alg».proof.Proof.Gen.KernelIdeal.Frame
import proofs.«109340_j53635551592510_1_alg».proof.Proof.Gen.ReferenceIdeal.Read
import Idealize.ShloMosaic.Lib.ValueLayout

noncomputable section

namespace Cert.KernelIdeal.HostMix1

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read (val_main_v8 val_main_v9 val_main_v45 val_main_v48 val_main_v55)

variable (W : Valuation τ sig (Elt Ideal))
  (x0 x4 : (⟨Cert.ReferenceIdeal.S50000x128, .f32⟩ : BufTy).Contents (Elt Ideal))
  (x1 x2 : (⟨Cert.ReferenceIdeal.S500000, .i32⟩ : BufTy).Contents (Elt Ideal))
  (x5 : (⟨Cert.ReferenceIdeal.S256x256, .f32⟩ : BufTy).Contents (Elt Ideal))
  (x6 x9 x10 : (⟨Cert.ReferenceIdeal.S256, .f32⟩ : BufTy).Contents (Elt Ideal))

/-- The mixed and biased features of the first layer. -/
theorem mixed (h8 : W (Proc.devRef .tc main_v8) = val_main_v8 (F := Ideal) x1)
    (h9 : W (Proc.devRef .tc main_v9) = val_main_v9 (F := Ideal) x0 x4 x5)
    (h1 : W (Proc.devRef .tc main_arg1) = x1) (h2 : W (Proc.devRef .tc main_arg2) = x2) (h6 : W (Proc.devRef .tc main_arg6) = x6) :
    StableHlo.after (hostOps1 (F := Ideal)) W (Proc.devRef .tc main_v45) = val_main_v45 (F := Ideal) x0 x1 x2 x4 x5 x6 := by
  after_results_simp
  rw [h8, h9, h1, h2, h6]
  rfl

/-- The column means, laid out as one row: entry (0, q) is the mean of column q. -/
theorem means (h8 : W (Proc.devRef .tc main_v8) = val_main_v8 (F := Ideal) x1)
    (h9 : W (Proc.devRef .tc main_v9) = val_main_v9 (F := Ideal) x0 x4 x5)
    (h1 : W (Proc.devRef .tc main_arg1) = x1) (h2 : W (Proc.devRef .tc main_arg2) = x2) (h6 : W (Proc.devRef .tc main_arg6) = x6) :
    (fun q : Fin 256 => StableHlo.after (hostOps1 (F := Ideal)) W (Proc.devRef .tc main_v56) (ix2 0 q))
      = fun q => val_main_v48 (F := Ideal) x0 x1 x2 x4 x5 x6 (ix1 q) := by
  funext q
  after_results_simp
  rw [h8, h9, h1, h2, h6]
  refine (shapeCast_a_1a_apply _ _ 0 q).trans ?_
  rfl

/-- The column variances, laid out as one row. -/
theorem variances (h8 : W (Proc.devRef .tc main_v8) = val_main_v8 (F := Ideal) x1)
    (h9 : W (Proc.devRef .tc main_v9) = val_main_v9 (F := Ideal) x0 x4 x5)
    (h1 : W (Proc.devRef .tc main_arg1) = x1) (h2 : W (Proc.devRef .tc main_arg2) = x2) (h6 : W (Proc.devRef .tc main_arg6) = x6) :
    (fun q : Fin 256 => StableHlo.after (hostOps1 (F := Ideal)) W (Proc.devRef .tc main_v57) (ix2 0 q))
      = fun q => val_main_v55 (F := Ideal) x0 x1 x2 x4 x5 x6 (ix1 q) := by
  funext q
  after_results_simp
  rw [h8, h9, h1, h2, h6]
  refine (shapeCast_a_1a_apply _ _ 0 q).trans ?_
  rfl

/-- The learned scale, laid out as one row. -/
theorem scale (h9' : W (Proc.devRef .tc main_arg9) = x9) :
    (fun q : Fin 256 => StableHlo.after (hostOps1 (F := Ideal)) W (Proc.devRef .tc main_v58) (ix2 0 q)) = fun q => x9 (ix1 q) := by
  funext q
  after_results_simp
  rw [h9']
  exact shapeCast_a_1a_apply _ _ 0 q

/-- The learned shift, laid out as one row. -/
theorem shift (h10 : W (Proc.devRef .tc main_arg10) = x10) :
    (fun q : Fin 256 => StableHlo.after (hostOps1 (F := Ideal)) W (Proc.devRef .tc main_v59) (ix2 0 q)) = fun q => x10 (ix1 q) := by
  funext q
  after_results_simp
  rw [h10]
  exact shapeCast_a_1a_apply _ _ 0 q

/-- The stretch leaves the degree scales and the argument arrays it does not write as they were. -/
theorem kept_v8 : StableHlo.after (hostOps1 (F := Ideal)) W (Proc.devRef .tc main_v8) = W (Proc.devRef .tc main_v8) := by
  after_results_simp
theorem kept_arg1 : StableHlo.after (hostOps1 (F := Ideal)) W (Proc.devRef .tc main_arg1) = W (Proc.devRef .tc main_arg1) := by
  after_results_simp
theorem kept_arg2 : StableHlo.after (hostOps1 (F := Ideal)) W (Proc.devRef .tc main_arg2) = W (Proc.devRef .tc main_arg2) := by
  after_results_simp
theorem kept_arg3 : StableHlo.after (hostOps1 (F := Ideal)) W (Proc.devRef .tc main_arg3) = W (Proc.devRef .tc main_arg3) := by
  after_results_simp
theorem kept_arg7 : StableHlo.after (hostOps1 (F := Ideal)) W (Proc.devRef .tc main_arg7) = W (Proc.devRef .tc main_arg7) := by
  after_results_simp
theorem kept_arg8 : StableHlo.after (hostOps1 (F := Ideal)) W (Proc.devRef .tc main_arg8) = W (Proc.devRef .tc main_arg8) := by
  after_results_simp
theorem kept_arg11 : StableHlo.after (hostOps1 (F := Ideal)) W (Proc.devRef .tc main_arg11) = W (Proc.devRef .tc main_arg11) := by
  after_results_simp
theorem kept_arg12 : StableHlo.after (hostOps1 (F := Ideal)) W (Proc.devRef .tc main_arg12) = W (Proc.devRef .tc main_arg12) := by
  after_results_simp
theorem kept_arg13 : StableHlo.after (hostOps1 (F := Ideal)) W (Proc.devRef .tc main_arg13) = W (Proc.devRef .tc main_arg13) := by
  after_results_simp
theorem kept_arg14 : StableHlo.after (hostOps1 (F := Ideal)) W (Proc.devRef .tc main_arg14) = W (Proc.devRef .tc main_arg14) := by
  after_results_simp

end Cert.KernelIdeal.HostMix1

end
-- ==== Proof.HostMix2.lean ====
/-
  The third stretch of whole-array operations: the second layer's row mixing and bias, and the endpoint rows.

  The projected features of the second layer are mixed along the edges exactly as in the first layer — every edge
  carries its source row scaled by the two endpoints' degree scales, the rows are summed into their targets, every
  node adds its own row scaled by the square of its degree scale, the bias is added — and then, for every queried
  pair of nodes, the two endpoints' rows are gathered into two arrays of rows. The stretch ends by laying the two
  biases of the predictor out as a row and as a single entry. The other program applies the same operations to its
  own projected features, so once those and the degree scales agree, so do the two arrays of endpoint rows.
-/
import proofs.«109340_j53635551592510_1_alg».proof.Proof.Gen.KernelIdeal.Frame
import proofs.«109340_j53635551592510_1_alg».proof.Proof.Gen.ReferenceIdeal.Read
import Idealize.ShloMosaic.Lib.ValueLayout

noncomputable section

namespace Cert.KernelIdeal.HostMix2

open Idealize.ShloMosaic Idealize.ShloMosaic.TcCoe Idealize.SL.Sem Idealize.ShloMosaic.StableHlo Idealize.ShloMosaic.ValueIdx
open Cert.KernelIdeal Cert.KernelIdeal.Gen
open Cert.ReferenceIdeal.Read (val_main_v8 val_main_v72 val_main_v117 val_main_v126)

variable (W : Valuation τ sig (Elt Ideal))
  (x0 x4 : (⟨Cert.ReferenceIdeal.S50000x128, .f32⟩ : BufTy).Contents (Elt Ideal))
  (x1 x2 : (⟨Cert.ReferenceIdeal.S500000, .i32⟩ : BufTy).Contents (Elt Ideal))
  (x3 : (⟨Cert.ReferenceIdeal.S2x200000, .i32⟩ : BufTy).Contents (Elt Ideal))
  (x5 x7 : (⟨Cert.ReferenceIdeal.S256x256, .f32⟩ : BufTy).Contents (Elt Ideal))
  (x6 x8 x9 x10 x12 : (⟨Cert.ReferenceIdeal.S256, .f32⟩ : BufTy).Contents (Elt Ideal))
  (x14 : (⟨Cert.ReferenceIdeal.S1, .f32⟩ : BufTy).Contents (Elt Ideal))

/-- The rows of the queried pairs' first endpoints. -/
theorem firstRows (h8 : W (Proc.devRef .tc main_v8) = val_main_v8 (F := Ideal) x1)
    (h61 : W (Proc.devRef .tc main_v61) = val_main_v72 (F := Ideal) x0 x1 x2 x4 x5 x6 x7 x9 x10)
    (h1 : W (Proc.devRef .tc main_arg1) = x1) (h2 : W (Proc.devRef .tc main_arg2) = x2) (h3 : W (Proc.devRef .tc main_arg3) = x3)
    (h8' : W (Proc.devRef .tc main_arg8) = x8) :
    StableHlo.after (hostOps3 (F := Ideal)) W (Proc.devRef .tc main_v106)
      = val_main_v117 (F := Ideal) x0 x1 x2 x3 x4 x5 x6 x7 x8 x9 x10 := by
  after_results_simp
  rw [h8, h61, h1, h2, h3, h8']
  rfl

/-- The rows of the queried pairs' second endpoints. -/
theorem secondRows (h8 : W (Proc.devRef .tc main_v8) = val_main_v8 (F := Ideal) x1)
    (h61 : W (Proc.devRef .tc main_v61) = val_main_v72 (F := Ideal) x0 x1 x2 x4 x5 x6 x7 x9 x10)
    (h1 : W (Proc.devRef .tc main_arg1) = x1) (h2 : W (Proc.devRef .tc main_arg2) = x2) (h3 : W (Proc.devRef .tc main_arg3) = x3)
    (h8' : W (Proc.devRef .tc main_arg8) = x8) :
    StableHlo.after (hostOps3 (F := Ideal)) W (Proc.devRef .tc main_v115)
      = val_main_v126 (F := Ideal) x0 x1 x2 x3 x4 x5 x6 x7 x8 x9 x10 := by
  after_results_simp
  rw [h8, h61, h1, h2, h3, h8']
  rfl

/-- The hidden layer's bias, laid out as one row. -/
theorem hiddenBias (h12 : W (Proc.devRef .tc main_arg12) = x12) :
    (fun q : Fin 256 => StableHlo.after (hostOps3 (F := Ideal)) W (Proc.devRef .tc main_v116) (ix2 0 q)) = fun q => x12 (ix1 q) := by
  funext q
  after_results_simp
  rw [h12]
  exact shapeCast_a_1a_apply _ _ 0 q

/-- The output bias, laid out as a single entry. -/
theorem outBias (h14 : W (Proc.devRef .tc main_arg14) = x14) :
    StableHlo.after (hostOps3 (F := Ideal)) W (Proc.devRef .tc main_v117) (ix2 0 0) = x14 (ix1 0) := by
  after_results_simp
  rw [h14]
  exact shapeCast_a_1a_apply _ _ 0 0

/-- The stretch leaves the predictor's two weight arrays as they were. -/
theorem kept_arg11 : StableHlo.after (hostOps3 (F := Ideal)) W (Proc.devRef .tc main_arg11) = W (Proc.devRef .tc main_arg11) := by
  after_results_simp
theorem kept_arg13 : StableHlo.after (hostOps3 (F := Ideal)) W (Proc.devRef .tc main_arg13) = W (Proc.devRef .tc main_arg13) := by
  after_results_simp

end Cert.KernelIdeal.HostMix2

end
-- ==== Proof.Layer1Blocks.lean ====
/-
  The first feature transform of the kernel, from blocks of rows to the whole array.

  The region walks over the 50000 rows of the joined node features in 25 blocks of 2000 rows. At block t it holds rows
  2000·t … 2000·t + 1999 of the features and the whole 256 x 256 first weight matrix, rounds both to the narrower float format
  (the identity on extended reals), multiplies them into an accumulator that starts at zero, and writes the 2000 x 256
  result over rows 2000·t … 2000·t + 1999 of the output array.

  Entry (p, q) of a block product is the sum over s of block(p, s) · weights(s, q). Row p of block t is row 2000·t + p of
  the feature array, so this is entry (2000·t + p, q) of the product of the whole feature array with the weight matrix:
  every block written back is a block of that one product. The 25 blocks cover all rows (row r lies in block r / 2000),
  so after the region the output array is the matrix product of the specification.
-/
import proofs.«109340_j53635551592510_1_alg».proof.Proof.Gen.KernelIdeal.Frame
import proofs.«109340_j53635551592510_1_alg».proof.Proof.Spec
import Idealize.ShloMosaic.Lib.Pipeline.Value
import Idealize.ShloMosaic.Lib.ValueIdx
import Idealize.ShloMosaic.PureOps.Ideal.Laws

noncomputable section

namespace Cert.KernelIdeal.Layer1
open Idealize.ShloMosaic Idealize.ShloMosaic.TcCoe Idealize.SL.Sem Idealize.ShloMosaic.ValueIdx Cert.KernelIdeal Cert.GcnSpec

/-! ## The block product at an entry -/

/-- The left operand's row coordinate under the contraction is the result's row. -/
theorem left_row (i : S2000x256.Idx) (s : dot_S2000x256_S256x256_S2000x256_1_0_0_1_n_n.contr.Idx) :
    (dot_S2000x256_S256x256_S2000x256_1_0_0_1_n_n.lhsIdx i s 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- The left operand's column coordinate under the contraction is the summation variable. -/
theorem left_col (i : S2000x256.Idx) (s : dot_S2000x256_S256x256_S2000x256_1_0_0_1_n_n.contr.Idx) :
    (dot_S2000x256_S256x256_S2000x256_1_0_0_1_n_n.lhsIdx i s 1).val = (s ⟨0, by decide⟩).val :=
  dot_S2000x256_S256x256_S2000x256_1_0_0_1_n_n.lhsIdx_val_of_single rfl i s

/-- The right operand's row coordinate under the contraction is the summation variable. -/
theorem right_row (i : S2000x256.Idx) (s : dot_S2000x256_S256x256_S2000x256_1_0_0_1_n_n.contr.Idx) :
    (dot_S2000x256_S256x256_S2000x256_1_0_0_1_n_n.rhsIdx i s 0).val = (s ⟨0, by decide⟩).val :=
  dot_S2000x256_S256x256_S2000x256_1_0_0_1_n_n.rhsIdx_val_of_single rfl i s

/-- The right operand's column coordinate under the contraction is the result's column. -/
theorem right_col (i : S2000x256.Idx) (s : dot_S2000x256_S256x256_S2000x256_1_0_0_1_n_n.contr.Idx) :
    (dot_S2000x256_S256x256_S2000x256_1_0_0_1_n_n.rhsIdx i s 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- One entry of the product of a 2000 x 256 block with a 256 x 256 matrix, accumulated from zero:
    the sum over t of a(p, t) · b(t, q). -/
theorem product_entry (a : FVec Ideal S2000x256 .bf16) (b : FVec Ideal S256x256 .bf16) (p : Fin 2000) (q : Fin 256) :
    FloatOps.matmul dot_S2000x256_S256x256_S2000x256_1_0_0_1_n_n none a b (constant S2000x256 .f32 0x00000000#32) (ix2 p q)
      = ∑ k : Fin 256, a (ix2 p k) * b (ix2 k q) := by
  rw [Ideal.matmul_constant_zero_apply,
    ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q)
      ((ValueIdx.contrEquiv1 dot_S2000x256_S256x256_S2000x256_1_0_0_1_n_n 256 rfl rfl).symm k) = ix2 p k :=
    funext fun d => Fin.ext (by
      match d with
      | ⟨0, _⟩ => exact left_row _ _
      | ⟨1, _⟩ => exact (left_col _ _).trans hk)
  have er : dot_S2000x256_S256x256_S2000x256_1_0_0_1_n_n.rhsIdx (ix2 p q)
      ((ValueIdx.contrEquiv1 dot_S2000x256_S256x256_S2000x256_1_0_0_1_n_n 256 rfl rfl).symm k) = ix2 k q :=
    funext fun d => Fin.ext (by
      match d with
      | ⟨0, _⟩ => exact (right_row _ _).trans hk
      | ⟨1, _⟩ => exact right_col _ _)
  rw [el, er]

/-- The body's payload at an entry is the block product: rounding both operands to the narrower format is the
    identity on extended reals, and the accumulator starts at zero. -/
theorem payload_entry (x0 : Vec Ideal S2000x256 .f32) (x1 : Vec Ideal S256x256 .f32) (p : Fin 2000) (q : Fin 256) :
    Gen.k0_pay1 (F := Ideal) x0 x1 (ix2 p q) = ∑ k : Fin 256, x0 (ix2 p k) * x1 (ix2 k q) := by
  unfold Gen.k0_pay1
  refine (product_entry _ _ p q).trans ?_
  refine Finset.sum_congr rfl fun k _ => ?_
  rw [shapeCast_self]
  rfl

/-! ## From the blocks to the array -/

/-- An entry of the payload is an entry of the whole product as soon as the block's row p is the array's row of i
    and the staged matrix is the whole weight matrix read at the column of i. -/
theorem block_entry (H : Mat 50000 256) (W : Mat 256 256) (x0 : Vec Ideal S2000x256 .f32) (x1 : Vec Ideal S256x256 .f32)
    (p : Fin 2000) (q : Fin 256) (i : S50000x256.Idx)
    (h0 : ∀ k : Fin 256, x0 (ix2 p k) = H (ix2 (rowOf i) k))
    (h1 : ∀ k : Fin 256, x1 (ix2 k q) = W (ix2 k (colOf i))) :
    Gen.k0_pay1 (F := Ideal) x0 x1 (ix2 p q) = mm H W i := by
  rw [payload_entry]
  unfold mm
  exact Finset.sum_congr rfl fun k _ => by rw [h0 k, h1 k]

theorem zero_offsets : (![0, 0] : Fin 2 → Nat) = fun _ => 0 := funext fun a => by fin_cases a <;> rfl

/-- Where the windows' blocks sit, decided over the 25 grid points: the feature window and the output window at block
    row t and block column 0, the weight matrix always at its one block. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What grid point t writes back is block t of the whole product of the two arrays as the region finds them. -/
theorem written_block (c : Dev nD) (t : Fin cfg0.N) :
    (Gen.dat0 (F := Ideal) V c).flushed 2 t
      = ((cfg0.win 2).blk t).view.read (Elt Ideal) (mm (V c main_v0) (V c main_arg5)) := by
  show (cfg0.win 2).cut (grid0.coords t) ((Gen.dat0 (F := Ideal) V c).after 2 t) = _
  rw [Gen.after0_2]
  unfold Gen.out0_2
  rw [View.canon_unit_zero zero_offsets]
  simp only [View.ld_unit_zero (S := S2000x256) zero_offsets, View.ld_unit_zero (S := S256x256) zero_offsets]
  obtain ⟨e0, e1, e2, e3, e4, e5⟩ := block_indices t
  funext j
  obtain ⟨p, q, rfl⟩ : ∃ (p : Fin 2000) (q : Fin 256), j = ix2 p q := ⟨j 0, j 1, eq_ix2 j⟩
  show Gen.k0_pay1 (Gen.iblk0 V c 0 t) (Gen.iblk0 V c 1 t) (ix2 p q)
    = mm (V c main_v0) (V c main_arg5) (((cfg0.win 2).blk t).view.emb (ix2 p q))
  refine block_entry _ _ _ _ p q _ (fun k => ?_) (fun k => ?_)
  · show V c main_v0 (((cfg0.win 0).blk t).view.emb (ix2 p k)) = V c main_v0 (ix2 _ k)
    refine congrArg _ (funext fun a => Fin.ext ?_)
    match a with
    | ⟨0, _⟩ =>
      show win0_0.index t (0 : Fin 2) * 2000 + 1 * p.val = win0_2.index t (0 : Fin 2) * 2000 + 1 * p.val
      omega
    | ⟨1, _⟩ =>
      show win0_0.index t (1 : Fin 2) * 256 + 1 * k.val = k.val
      omega
  · show V c main_arg5 (((cfg0.win 1).blk t).view.emb (ix2 k q)) = V c main_arg5 (ix2 k _)
    refine congrArg _ (funext fun a => Fin.ext ?_)
    match a with
    | ⟨0, _⟩ =>
      show win0_1.index t (0 : Fin 2) * 256 + 1 * k.val = k.val
      omega
    | ⟨1, _⟩ =>
      show win0_1.index t (1 : Fin 2) * 256 + 1 * q.val = win0_2.index t (1 : Fin 2) * 256 + 1 * q.val
      omega

/-- An entry of the output array lies in grid point t's block exactly when each coordinate lies in the block's range. -/
theorem mem_block (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v9).slice (win0_2.rect t)).set ↔ _
  rw [View.set_slice_whole, Rect.mem_set_unit]
  exact Iff.rfl

/-- Every entry of the output array is written: row r belongs to the block of grid point r / 2000. -/
theorem covered (i : S50000x256.Idx) :
    ∃ t : Fin cfg0.N, (cfg0.win 2).flush t = true ∧ i ∈ ((cfg0.win 2).blk t).view.set := by
  have hi0 : (i 0).val < 50000 := idx2_lt0 i
  have hi1 : (i 1).val < 256 := idx2_lt1 i
  have hN : cfg0.N = 25 := Gen.N_0
  obtain ⟨t, ht⟩ : ∃ t : Fin cfg0.N, t.val = (i 0).val / 2000 := ⟨⟨(i 0).val / 2000, by omega⟩, rfl⟩
  obtain ⟨e0, e1, e2, e3, e4, e5⟩ := block_indices t
  refine ⟨t, Gen.flush0_2 t, ?_⟩
  rw [mem_block]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 256 ≤ (i 1).val ∧ (i 1).val < win0_2.index t (1 : Fin 2) * 256 + 256
    omega

/-- After the region the output array is the product of the feature array with the weight matrix. -/
theorem array (c : Dev nD) :
    (Gen.dat0 (F := Ideal) V c).arrAt 2 cfg0.N = mm (V c main_v0) (V c main_arg5) :=
  (Gen.dat0 (F := Ideal) V c).arrAt_eq_of_cover 2 (mm (V c main_v0) (V c main_arg5))
    (fun t _ => written_block V c t) covered

end Cert.KernelIdeal.Layer1

end
-- ==== Proof.Layer2Blocks.lean ====
/-
  The second feature transform of the kernel, from blocks of rows to the whole array.

  The region walks over the 50000 rows of the normalised hidden features in 25 blocks of 2000 rows. At block t it holds rows
  2000·t … 2000·t + 1999 of the features and the whole 256 x 256 second weight matrix, rounds both to the narrower float format
  (the identity on extended reals), multiplies them into an accumulator that starts at zero, and writes the 2000 x 256
  result over rows 2000·t … 2000·t + 1999 of the output array.

  Entry (p, q) of a block product is the sum over s of block(p, s) · weights(s, q). Row p of block t is row 2000·t + p of
  the feature array, so this is entry (2000·t + p, q) of the product of the whole feature array with the weight matrix:
  every block written back is a block of that one product. The 25 blocks cover all rows (row r lies in block r / 2000),
  so after the region the output array is the matrix product of the specification.
-/
import proofs.«109340_j53635551592510_1_alg».proof.Proof.Gen.KernelIdeal.Frame
import proofs.«109340_j53635551592510_1_alg».proof.Proof.Spec
import Idealize.ShloMosaic.Lib.Pipeline.Value
import Idealize.ShloMosaic.Lib.ValueIdx
import Idealize.ShloMosaic.PureOps.Ideal.Laws

noncomputable section

namespace Cert.KernelIdeal.Layer2
open Idealize.ShloMosaic Idealize.ShloMosaic.TcCoe Idealize.SL.Sem Idealize.ShloMosaic.ValueIdx Cert.KernelIdeal Cert.GcnSpec

/-! ## The block product at an entry -/

/-- The left operand's row coordinate under the contraction is the result's row. -/
theorem left_row (i : S2000x256.Idx) (s : dot_S2000x256_S256x256_S2000x256_1_0_0_1_n_n.contr.Idx) :
    (dot_S2000x256_S256x256_S2000x256_1_0_0_1_n_n.lhsIdx i s 0).val = (i 0).val := by
  unfold DotDims.lhsIdx
  rw [dif_neg (show ¬(0 : Fin S2000x256.rank) ∈ dot_S2000x256_S256x256_S2000x256_1_0_0_1_n_n.lhsBatch by decide),
    dif_pos (show (0 : Fin S2000x256.rank) ∈ dot_S2000x256_S256x256_S2000x256_1_0_0_1_n_n.lhsNonContracting by decide)]
  rfl

/-- The left operand's column coordinate under the contraction is the summation variable. -/
theorem left_col (i : S2000x256.Idx) (s : dot_S2000x256_S256x256_S2000x256_1_0_0_1_n_n.contr.Idx) :
    (dot_S2000x256_S256x256_S2000x256_1_0_0_1_n_n.lhsIdx i s 1).val = (s ⟨0, by decide⟩).val :=
  dot_S2000x256_S256x256_S2000x256_1_0_0_1_n_n.lhsIdx_val_of_single rfl i s

/-- The right operand's row coordinate under the contraction is the summation variable. -/
theorem right_row (i : S2000x256.Idx) (s : dot_S2000x256_S256x256_S2000x256_1_0_0_1_n_n.contr.Idx) :
    (dot_S2000x256_S256x256_S2000x256_1_0_0_1_n_n.rhsIdx i s 0).val = (s ⟨0, by decide⟩).val :=
  dot_S2000x256_S256x256_S2000x256_1_0_0_1_n_n.rhsIdx_val_of_single rfl i s

/-- The right operand's column coordinate under the contraction is the result's column. -/
theorem right_col (i : S2000x256.Idx) (s : dot_S2000x256_S256x256_S2000x256_1_0_0_1_n_n.contr.Idx) :
    (dot_S2000x256_S256x256_S2000x256_1_0_0_1_n_n.rhsIdx i s 1).val = (i 1).val := by
  unfold DotDims.rhsIdx
  rw [dif_neg (show ¬(1 : Fin S256x256.rank) ∈ dot_S2000x256_S256x256_S2000x256_1_0_0_1_n_n.rhsBatch by decide),
    dif_pos (show (1 : Fin S256x256.rank) ∈ dot_S2000x256_S256x256_S2000x256_1_0_0_1_n_n.rhsNonContracting by decide)]
  rfl

/-- One entry of the product of a 2000 x 256 block with a 256 x 256 matrix, accumulated from zero:
    the sum over t of a(p, t) · b(t, q). -/
theorem product_entry (a : FVec Ideal S2000x256 .bf16) (b : FVec Ideal S256x256 .bf16) (p : Fin 2000) (q : Fin 256) :
    FloatOps.matmul dot_S2000x256_S256x256_S2000x256_1_0_0_1_n_n none a b (constant S2000x256 .f32 0x00000000#32) (ix2 p q)
      = ∑ k : Fin 256, a (ix2 p k) * b (ix2 k q) := by
  rw [Ideal.matmul_constant_zero_apply,
    ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q)
      ((ValueIdx.contrEquiv1 dot_S2000x256_S256x256_S2000x256_1_0_0_1_n_n 256 rfl rfl).symm k) = ix2 p k :=
    funext fun d => Fin.ext (by
      match d with
      | ⟨0, _⟩ => exact left_row _ _
      | ⟨1, _⟩ => exact (left_col _ _).trans hk)
  have er : dot_S2000x256_S256x256_S2000x256_1_0_0_1_n_n.rhsIdx (ix2 p q)
      ((ValueIdx.contrEquiv1 dot_S2000x256_S256x256_S2000x256_1_0_0_1_n_n 256 rfl rfl).symm k) = ix2 k q :=
    funext fun d => Fin.ext (by
      match d with
      | ⟨0, _⟩ => exact (right_row _ _).trans hk
      | ⟨1, _⟩ => exact right_col _ _)
  rw [el, er]

/-- The body's payload at an entry is the block product: rounding both operands to the narrower format is the
    identity on extended reals, and the accumulator starts at zero. -/
theorem payload_entry (x0 : Vec Ideal S2000x256 .f32) (x1 : Vec Ideal S256x256 .f32) (p : Fin 2000) (q : Fin 256) :
    Gen.k2_pay1 (F := Ideal) x0 x1 (ix2 p q) = ∑ k : Fin 256, x0 (ix2 p k) * x1 (ix2 k q) := by
  unfold Gen.k2_pay1
  refine (product_entry _ _ p q).trans ?_
  refine Finset.sum_congr rfl fun k _ => ?_
  rw [shapeCast_self]
  rfl

/-! ## From the blocks to the array -/

/-- An entry of the payload is an entry of the whole product as soon as the block's row p is the array's row of i
    and the staged matrix is the whole weight matrix read at the column of i. -/
theorem block_entry (H : Mat 50000 256) (W : Mat 256 256) (x0 : Vec Ideal S2000x256 .f32) (x1 : Vec Ideal S256x256 .f32)
    (p : Fin 2000) (q : Fin 256) (i : S50000x256.Idx)
    (h0 : ∀ k : Fin 256, x0 (ix2 p k) = H (ix2 (rowOf i) k))
    (h1 : ∀ k : Fin 256, x1 (ix2 k q) = W (ix2 k (colOf i))) :
    Gen.k2_pay1 (F := Ideal) x0 x1 (ix2 p q) = mm H W i := by
  rw [payload_entry]
  unfold mm
  exact Finset.sum_congr rfl fun k _ => by rw [h0 k, h1 k]

theorem zero_offsets : (![0, 0] : Fin 2 → Nat) = fun _ => 0 := funext fun a => by fin_cases a <;> rfl

/-- Where the windows' blocks sit, decided over the 25 grid points: the feature window and the output window at block
    row t and block column 0, the weight matrix always at its one block. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What grid point t writes back is block t of the whole product of the two arrays as the region finds them. -/
theorem written_block (c : Dev nD) (t : Fin cfg2.N) :
    (Gen.dat2 (F := Ideal) V c).flushed 2 t
      = ((cfg2.win 2).blk t).view.read (Elt Ideal) (mm (V c main_v60) (V c main_arg7)) := by
  show (cfg2.win 2).cut (grid2.coords t) ((Gen.dat2 (F := Ideal) V c).after 2 t) = _
  rw [Gen.after2_2]
  unfold Gen.out2_2
  rw [View.canon_unit_zero zero_offsets]
  simp only [View.ld_unit_zero (S := S2000x256) zero_offsets, View.ld_unit_zero (S := S256x256) zero_offsets]
  obtain ⟨e0, e1, e2, e3, e4, e5⟩ := block_indices t
  funext j
  obtain ⟨p, q, rfl⟩ : ∃ (p : Fin 2000) (q : Fin 256), j = ix2 p q := ⟨j 0, j 1, eq_ix2 j⟩
  show Gen.k2_pay1 (Gen.iblk2 V c 0 t) (Gen.iblk2 V c 1 t) (ix2 p q)
    = mm (V c main_v60) (V c main_arg7) (((cfg2.win 2).blk t).view.emb (ix2 p q))
  refine block_entry _ _ _ _ p q _ (fun k => ?_) (fun k => ?_)
  · show V c main_v60 (((cfg2.win 0).blk t).view.emb (ix2 p k)) = V c main_v60 (ix2 _ k)
    refine congrArg _ (funext fun a => Fin.ext ?_)
    match a with
    | ⟨0, _⟩ =>
      show win2_0.index t (0 : Fin 2) * 2000 + 1 * p.val = win2_2.index t (0 : Fin 2) * 2000 + 1 * p.val
      omega
    | ⟨1, _⟩ =>
      show win2_0.index t (1 : Fin 2) * 256 + 1 * k.val = k.val
      omega
  · show V c main_arg7 (((cfg2.win 1).blk t).view.emb (ix2 k q)) = V c main_arg7 (ix2 k _)
    refine congrArg _ (funext fun a => Fin.ext ?_)
    match a with
    | ⟨0, _⟩ =>
      show win2_1.index t (0 : Fin 2) * 256 + 1 * k.val = k.val
      omega
    | ⟨1, _⟩ =>
      show win2_1.index t (1 : Fin 2) * 256 + 1 * q.val = win2_2.index t (1 : Fin 2) * 256 + 1 * q.val
      omega

/-- An entry of the output array lies in grid point t's block exactly when each coordinate lies in the block's range. -/
theorem mem_block (t : Fin cfg2.N) (i : S50000x256.Idx) :
    i ∈ ((cfg2.win 2).blk t).view.set ↔ ∀ a : Fin 2, win2_2.index t a * S2000x256.size a ≤ (i a).val
      ∧ (i a).val < win2_2.index t a * S2000x256.size a + S2000x256.size a := by
  show i ∈ ((View.whole main_v61).slice (win2_2.rect t)).set ↔ _
  rw [View.set_slice_whole, Rect.mem_set_unit]
  exact Iff.rfl

/-- Every entry of the output array is written: row r belongs to the block of grid point r / 2000. -/
theorem covered (i : S50000x256.Idx) :
    ∃ t : Fin cfg2.N, (cfg2.win 2).flush t = true ∧ i ∈ ((cfg2.win 2).blk t).view.set := by
  have hi0 : (i 0).val < 50000 := idx2_lt0 i
  have hi1 : (i 1).val < 256 := idx2_lt1 i
  have hN : cfg2.N = 25 := Gen.N_2
  obtain ⟨t, ht⟩ : ∃ t : Fin cfg2.N, t.val = (i 0).val / 2000 := ⟨⟨(i 0).val / 2000, by omega⟩, rfl⟩
  obtain ⟨e0, e1, e2, e3, e4, e5⟩ := block_indices t
  refine ⟨t, Gen.flush2_2 t, ?_⟩
  rw [mem_block]
  intro a
  match a with
  | ⟨0, _⟩ =>
    show win2_2.index t (0 : Fin 2) * 2000 ≤ (i 0).val ∧ (i 0).val < win2_2.index t (0 : Fin 2) * 2000 + 2000
    omega
  | ⟨1, _⟩ =>
    show win2_2.index t (1 : Fin 2) * 256 ≤ (i 1).val ∧ (i 1).val < win2_2.index t (1 : Fin 2) * 256 + 256
    omega

/-- After the region the output array is the product of the feature array with the weight matrix. -/
theorem array (c : Dev nD) :
    (Gen.dat2 (F := Ideal) V c).arrAt 2 cfg2.N = mm (V c main_v60) (V c main_arg7) :=
  (Gen.dat2 (F := Ideal) V c).arrAt_eq_of_cover 2 (mm (V c main_v60) (V c main_arg7))
    (fun t _ => written_block V c t) covered

end Cert.KernelIdeal.Layer2

end
-- ==== Proof.NormaliseBlocks.lean ====
/-
  The normalisation stage of the kernel, from blocks of rows to the whole array.

  The kernel normalises the hidden features 2000 rows at a time. At each of its 25 steps it holds one block of 2000 rows
  of the feature array h and, whole, the four rows mean, var, γ, β (arrays with one row and 256 columns); it copies each
  of the four rows along the 2000 rows of the block and computes entrywise

      max ((h − mean) · (var + ε)^(−1/2) · γ + β, 0),

  then writes the block back over the same 2000 rows of the result array.

  Read at the entry (p, q) of a block the copy of a row is the row at column q, so the block the kernel computes at
  step t is the specification's normalisation restricted to rows 2000 t, …, 2000 t + 1999: entry (p, q) of the block is
  entry (2000 t + p, q) of the array, a block's coordinate being always the block's number times the block's size plus
  the coordinate inside the block. Row r of the array lies in the block of step r / 2000, so the 25 blocks cover the
  array, and the result array ends holding the specification's normalisation of h by the four rows.
-/
import proofs.«109340_j53635551592510_1_alg».proof.Proof.Gen.KernelIdeal.Frame
import proofs.«109340_j53635551592510_1_alg».proof.Proof.Spec
import Idealize.ShloMosaic.Lib.Pipeline.Value
import Idealize.ShloMosaic.Lib.ValueIdx
import Idealize.ShloMosaic.PureOps.Ideal

noncomputable section

namespace Cert.KernelIdeal.Normalise

open Idealize.ShloMosaic Idealize.ShloMosaic.TcCoe Idealize.SL.Sem Idealize.ShloMosaic.ValueIdx Cert.KernelIdeal Cert.GcnSpec
open Idealize.ShloMosaic.Pipeline (Dat)

/-! ## One block, entry by entry -/

/-- A row copied along the 2000 rows of a block, read at the entry (p, q), is the row at column q. -/
theorem row_copy_apply (x : FVec Ideal S1x256 .f32) (p : Fin 2000) (q : Fin 256) :
    broadcastTo S2000x256 x Gen.broadcasts_S1x256_S2000x256 (ix2 p q) = x (ix2 0 q) :=
  broadcastTo_apply x Gen.broadcasts_S1x256_S2000x256 (ix2 p q) (ix2 0 q) (fun a => match a with
    | ⟨0, _⟩ => by show 0 = if (1 : Nat) = 1 then 0 else _; rw [if_pos rfl]
    | ⟨1, _⟩ => by show q.val = if (256 : Nat) = 1 then 0 else q.val; rw [if_neg (by decide)])

/-- What the kernel's body computes from a block h of rows and the four rows var, mean, γ, β, at the entry (p, q) of the
    block: the normalisation formula at that entry, each row read at column q. -/
theorem body_apply (var : Vec Ideal S1x256 .f32) (h : Vec Ideal S2000x256 .f32) (mean gamma beta : Vec Ideal S1x256 .f32)
    (p : Fin 2000) (q : Fin 256) :
    Gen.k1_pay1 (F := Ideal) var h mean gamma beta (ix2 p q)
      = max ((h (ix2 p q) - mean (ix2 0 q)) * Ideal.rsqrt (var (ix2 0 q) + epsWord) * gamma (ix2 0 q) + beta (ix2 0 q)) zeroWord := by
  unfold Gen.k1_pay1
  simp only [shapeCast_self]
  rw [maximumf_apply, addf_apply, mulf_apply, mulf_apply, subf_apply, row_copy_apply, row_copy_apply, row_copy_apply,
    row_copy_apply, broadcast_apply]
  rfl

/-! ## The blocks in the arrays -/

theorem zero_offsets : (![0, 0] : Fin 2 → Nat) = fun _ => 0 := funext fun a => by fin_cases a <;> rfl

/-- Where each window's block sits at step t, decided over the 25 steps: the feature block and the result block are
    block t along the rows and block 0 along the columns; the four rows are staged whole, block (0, 0). -/
theorem block_numbers : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

variable (V : (c : Dev nD) → (b : Ref sig .tc) → Buf (Elt Ideal) ((c : Thread nD τ).loc b))

/-- The specification's normalisation of the feature array by the four rows, as the region finds them. -/
abbrev target (c : Dev nD) : Mat 50000 256 :=
  bnRelu (V c main_v45) (fun q => V c main_v56 (ix2 0 q)) (fun q => V c main_v57 (ix2 0 q))
    (fun q => V c main_v58 (ix2 0 q)) (fun q => V c main_v59 (ix2 0 q))

/-- What step t writes back is block t of the normalised array. -/
theorem written_back (c : Dev nD) (t : Fin cfg1.N) :
    (Gen.dat1 (F := Ideal) V c).flushed 5 t = ((cfg1.win 5).blk t).view.read (Elt Ideal) (target V c) := by
  show (cfg1.win 5).cut (grid1.coords t) ((Gen.dat1 (F := Ideal) V c).after 5 t) = _
  rw [Gen.after1_5]
  unfold Gen.out1_5
  rw [View.canon_unit_zero zero_offsets]
  simp only [View.ld_unit_zero (S := S2000x256) zero_offsets, View.ld_unit_zero (S := S1x256) zero_offsets]
  obtain ⟨a0, a1, b0, b1, c0, c1, d0, d1, e0, e1, f0, f1⟩ := block_numbers t
  funext j
  obtain ⟨p, q, rfl⟩ : ∃ (p : Fin 2000) (q : Fin 256), j = ix2 p q := ⟨j 0, j 1, eq_ix2 j⟩
  show Gen.k1_pay1 (F := Ideal) (Gen.iblk1 V c 2 t) (Gen.iblk1 V c 0 t) (Gen.iblk1 V c 1 t) (Gen.iblk1 V c 3 t) (Gen.iblk1 V c 4 t) (ix2 p q)
      = target V c (((cfg1.win 5).blk t).view.emb (ix2 p q))
  refine (body_apply _ _ _ _ _ p q).trans ?_
  have hfeat : (Gen.iblk1 V c 0 t : Vec Ideal S2000x256 .f32) (ix2 p q)
      = V c main_v45 (((cfg1.win 5).blk t).view.emb (ix2 p q)) := by
    unfold Gen.iblk1
    rw [View.read_apply]
    show V c main_v45 (((cfg1.win 0).blk t).view.emb (ix2 p q)) = _
    refine congrArg (V c main_v45) (funext fun a => Fin.ext ?_)
    match a with
    | ⟨0, _⟩ => show win1_0.index t (0 : Fin 2) * 2000 + 1 * p.val = win1_5.index t (0 : Fin 2) * 2000 + 1 * p.val; omega
    | ⟨1, _⟩ => show win1_0.index t (1 : Fin 2) * 256 + 1 * q.val = win1_5.index t (1 : Fin 2) * 256 + 1 * q.val; omega
  have hmean : (Gen.iblk1 V c 1 t : Vec Ideal S1x256 .f32) (ix2 0 q)
      = V c main_v56 (ix2 0 (colOf (((cfg1.win 5).blk t).view.emb (ix2 p q)))) := by
    unfold Gen.iblk1
    rw [View.read_apply]
    show V c main_v56 (((cfg1.win 1).blk t).view.emb (ix2 0 q)) = _
    refine congrArg (V c main_v56) (funext fun a => Fin.ext ?_)
    match a with
    | ⟨0, _⟩ => show win1_1.index t (0 : Fin 2) * 1 + 1 * 0 = 0; omega
    | ⟨1, _⟩ => show win1_1.index t (1 : Fin 2) * 256 + 1 * q.val = win1_5.index t (1 : Fin 2) * 256 + 1 * q.val; omega
  have hvar : (Gen.iblk1 V c 2 t : Vec Ideal S1x256 .f32) (ix2 0 q)
      = V c main_v57 (ix2 0 (colOf (((cfg1.win 5).blk t).view.emb (ix2 p q)))) := by
    unfold Gen.iblk1
    rw [View.read_apply]
    show V c main_v57 (((cfg1.win 2).blk t).view.emb (ix2 0 q)) = _
    refine congrArg (V c main_v57) (funext fun a => Fin.ext ?_)
    match a with
    | ⟨0, _⟩ => show win1_2.index t (0 : Fin 2) * 1 + 1 * 0 = 0; omega
    | ⟨1, _⟩ => show win1_2.index t (1 : Fin 2) * 256 + 1 * q.val = win1_5.index t (1 : Fin 2) * 256 + 1 * q.val; omega
  have hgamma : (Gen.iblk1 V c 3 t : Vec Ideal S1x256 .f32) (ix2 0 q)
      = V c main_v58 (ix2 0 (colOf (((cfg1.win 5).blk t).view.emb (ix2 p q)))) := by
    unfold Gen.iblk1
    rw [View.read_apply]
    show V c main_v58 (((cfg1.win 3).blk t).view.emb (ix2 0 q)) = _
    refine congrArg (V c main_v58) (funext fun a => Fin.ext ?_)
    match a with
    | ⟨0, _⟩ => show win1_3.index t (0 : Fin 2) * 1 + 1 * 0 = 0; omega
    | ⟨1, _⟩ => show win1_3.index t (1 : Fin 2) * 256 + 1 * q.val = win1_5.index t (1 : Fin 2) * 256 + 1 * q.val; omega
  have hbeta : (Gen.iblk1 V c 4 t : Vec Ideal S1x256 .f32) (ix2 0 q)
      = V c main_v59 (ix2 0 (colOf (((cfg1.win 5).blk t).view.emb (ix2 p q)))) := by
    unfold Gen.iblk1
    rw [View.read_apply]
    show V c main_v59 (((cfg1.win 4).blk t).view.emb (ix2 0 q)) = _
    refine congrArg (V c main_v59) (funext fun a => Fin.ext ?_)
    match a with
    | ⟨0, _⟩ => show win1_4.index t (0 : Fin 2) * 1 + 1 * 0 = 0; omega
    | ⟨1, _⟩ => show win1_4.index t (1 : Fin 2) * 256 + 1 * q.val = win1_5.index t (1 : Fin 2) * 256 + 1 * q.val; omega
  rw [hfeat, hmean, hvar, hgamma, hbeta]
  rfl

/-- An entry of the result array lies in the block of step t exactly when, on each axis, its coordinate lies in the
    block's range. -/
theorem mem_block (t : Fin cfg1.N) (i : S50000x256.Idx) :
    i ∈ ((cfg1.win 5).blk t).view.set
      ↔ ∀ a : Fin 2, win1_5.index t a * S2000x256.size a ≤ (i a).val ∧ (i a).val < win1_5.index t a * S2000x256.size a + S2000x256.size a := by
  show i ∈ ((View.whole main_v60).slice (win1_5.rect t)).set ↔ _
  rw [View.set_slice_whole, Rect.mem_set_unit]
  exact Iff.rfl

/-- Every entry of the result array lies in the block of some step: row r in that of step r / 2000. -/
theorem covered (i : S50000x256.Idx) :
    ∃ t : Fin cfg1.N, (cfg1.win 5).flush t = true ∧ i ∈ ((cfg1.win 5).blk t).view.set := by
  have hr : (i 0).val < 50000 := (i 0).isLt
  have hq : (i 1).val < 256 := (i 1).isLt
  have hN : cfg1.N = 25 := rfl
  refine ⟨⟨(i 0).val / 2000, by rw [hN]; omega⟩, Gen.flush1_5 _, ?_⟩
  rw [mem_block]
  obtain ⟨-, -, -, -, -, -, -, -, -, -, f0, f1⟩ := block_numbers ⟨(i 0).val / 2000, by rw [hN]; omega⟩
  intro a
  match a with
  | ⟨0, _⟩ =>
    show win1_5.index _ (0 : Fin 2) * 2000 ≤ (i 0).val ∧ (i 0).val < win1_5.index _ (0 : Fin 2) * 2000 + 2000
    rw [f0]; show (i 0).val / 2000 * 2000 ≤ (i 0).val ∧ (i 0).val < (i 0).val / 2000 * 2000 + 2000; omega
  | ⟨1, _⟩ =>
    show win1_5.index _ (1 : Fin 2) * 256 ≤ (i 1).val ∧ (i 1).val < win1_5.index _ (1 : Fin 2) * 256 + 256
    rw [f1]; omega

/-- The result array after the 25 steps is the specification's normalisation of the feature array by the four rows. -/
theorem array (c : Dev nD) :
    (Gen.dat1 (F := Ideal) V c).arrAt 5 cfg1.N
      = bnRelu (V c main_v45) (fun q => V c main_v56 (ix2 0 q)) (fun q => V c main_v57 (ix2 0 q))
          (fun q => V c main_v58 (ix2 0 q)) (fun q => V c main_v59 (ix2 0 q)) :=
  (Gen.dat1 (F := Ideal) V c).arrAt_eq_of_cover 5 (target V c) (fun t _ => written_back V c t) covered

end Cert.KernelIdeal.Normalise

end
-- ==== Proof.PredictBlocks.lean ====
/-
  The link predictor's region, from its blocks to its output array.

  The region walks 100 grid points. At point t it holds rows 2000·t … 2000·t + 1999 of the two endpoint arrays a and b
  (each 200000 × 256), and the whole of the first weights w1 (256 × 256), the first bias as a row (1 × 256), the second
  weights w2 (256 × 1) and the second bias (1 × 1); it writes rows 2000·t … 2000·t + 1999 of the 200000 × 1 output.

  What the body stores, entry (p, 0) of the block: the entrywise product of the two row blocks is contracted with w1
  into a zero accumulator, the bias row is added along the rows, the maximum with the zero word is taken, the result is
  contracted with w2 into a zero accumulator, the one-entry bias is added, and the logistic function is applied. Over
  the extended reals the narrowing of the operands before each contraction is the identity and a contraction into zero
  is the plain sum over the 256 summation positions, so the entry is
      logistic (sum_t max (sum_s x0(p,s) · x1(p,s) · x2(s,t) + x3(0,t), zero) · x4(t,0) + x5(0,0)).

  From blocks to the array: the windows' index maps are decided once over the grid (the row-blocked windows sit at
  block row t, the small operands at block (0, 0)); a block's coordinate in its array is the block index times the
  block size plus the coordinate inside the block, so row p of block t is row 2000·t + p of the array, and the entry
  above is the specification's predictor at that row. Every row r of the output lies in the block of point r / 2000,
  and every point writes its block back; hence the output array after the region is the predictor of the arrays the
  region found.
-/
import proofs.«109340_j53635551592510_1_alg».proof.Proof.Gen.KernelIdeal.Frame
import proofs.«109340_j53635551592510_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Predict

open Idealize.ShloMosaic Idealize.ShloMosaic.TcCoe Idealize.SL.Sem Idealize.ShloMosaic.ValueIdx Cert.KernelIdeal Cert.GcnSpec

theorem contractHidden_lhs_row (i : S2000x256.Idx) (k : dot_S2000x256_S256x256_S2000x256_1_0_0_1_n_n.contr.Idx) : (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem contractHidden_lhs_col (i : S2000x256.Idx) (k : dot_S2000x256_S256x256_S2000x256_1_0_0_1_n_n.contr.Idx) : (dot_S2000x256_S256x256_S2000x256_1_0_0_1_n_n.lhsIdx i k 1).val = (k ⟨0, by decide⟩).val :=
  dot_S2000x256_S256x256_S2000x256_1_0_0_1_n_n.lhsIdx_val_of_single rfl i k
theorem contractHidden_rhs_row (i : S2000x256.Idx) (k : dot_S2000x256_S256x256_S2000x256_1_0_0_1_n_n.contr.Idx) : (dot_S2000x256_S256x256_S2000x256_1_0_0_1_n_n.rhsIdx i k 0).val = (k ⟨0, by decide⟩).val :=
  dot_S2000x256_S256x256_S2000x256_1_0_0_1_n_n.rhsIdx_val_of_single rfl i k
theorem contractHidden_rhs_col (i : S2000x256.Idx) (k : dot_S2000x256_S256x256_S2000x256_1_0_0_1_n_n.contr.Idx) : (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- Into a zero accumulator the product of a [2000, 256] block with a [256, 256] matrix has at (p, q) the sum over s of
    l(p, s) · r(s, q). -/
theorem contractHidden_apply (l : FVec Ideal S2000x256 .bf16) (r : FVec Ideal S256x256 .bf16) (p : Fin 2000) (q : Fin 256) :
    matmul dot_S2000x256_S256x256_S2000x256_1_0_0_1_n_n none l r (constant (F := Ideal) S2000x256 .f32 0x00000000#32) (ix2 p q)
      = ∑ s : Fin 256, l (ix2 p s) * r (ix2 s q) := by
  show FloatOps.matmul dot_S2000x256_S256x256_S2000x256_1_0_0_1_n_n none l r (constant (F := Ideal) S2000x256 .f32 0x00000000#32) (ix2 p q) = _
  rw [Ideal.matmul_constant_zero_apply, ← Equiv.sum_comp (ValueIdx.contrEquiv1 dot_S2000x256_S256x256_S2000x256_1_0_0_1_n_n 256 rfl rfl).symm]
  refine Finset.sum_congr rfl fun s _ => ?_
  have hs := ValueIdx.contrEquiv1_symm_val dot_S2000x256_S256x256_S2000x256_1_0_0_1_n_n 256 rfl rfl s
  have el : dot_S2000x256_S256x256_S2000x256_1_0_0_1_n_n.lhsIdx (ix2 p q) ((ValueIdx.contrEquiv1 dot_S2000x256_S256x256_S2000x256_1_0_0_1_n_n 256 rfl rfl).symm s) = ix2 p s := funext fun a => Fin.ext (by
    match a with
    | ⟨0, _⟩ => exact contractHidden_lhs_row _ _
    | ⟨1, _⟩ => exact (contractHidden_lhs_col _ _).trans hs)
  have er : dot_S2000x256_S256x256_S2000x256_1_0_0_1_n_n.rhsIdx (ix2 p q) ((ValueIdx.contrEquiv1 dot_S2000x256_S256x256_S2000x256_1_0_0_1_n_n 256 rfl rfl).symm s) = ix2 s q := funext fun a => Fin.ext (by
    match a with
    | ⟨0, _⟩ => exact (contractHidden_rhs_row _ _).trans hs
    | ⟨1, _⟩ => exact contractHidden_rhs_col _ _)
  rw [el, er]

theorem contractOut_lhs_row (i : S2000x1.Idx) (k : dot_S2000x256_S256x1_S2000x1_1_0_0_1_n_n.contr.Idx) : (dot_S2000x256_S256x1_S2000x1_1_0_0_1_n_n.lhsIdx i k 0).val = (i 0).val := by
  unfold DotDims.lhsIdx
  rw [dif_neg (show ¬(0 : Fin S2000x256.rank) ∈ dot_S2000x256_S256x1_S2000x1_1_0_0_1_n_n.lhsBatch by decide), dif_pos (show (0 : Fin S2000x256.rank) ∈ dot_S2000x256_S256x1_S2000x1_1_0_0_1_n_n.lhsNonContracting by decide)]
  rfl
theorem contractOut_lhs_col (i : S2000x1.Idx) (k : dot_S2000x256_S256x1_S2000x1_1_0_0_1_n_n.contr.Idx) : (dot_S2000x256_S256x1_S2000x1_1_0_0_1_n_n.lhsIdx i k 1).val = (k ⟨0, by decide⟩).val :=
  dot_S2000x256_S256x1_S2000x1_1_0_0_1_n_n.lhsIdx_val_of_single rfl i k
theorem contractOut_rhs_row (i : S2000x1.Idx) (k : dot_S2000x256_S256x1_S2000x1_1_0_0_1_n_n.contr.Idx) : (dot_S2000x256_S256x1_S2000x1_1_0_0_1_n_n.rhsIdx i k 0).val = (k ⟨0, by decide⟩).val :=
  dot_S2000x256_S256x1_S2000x1_1_0_0_1_n_n.rhsIdx_val_of_single rfl i k
theorem contractOut_rhs_col (i : S2000x1.Idx) (k : dot_S2000x256_S256x1_S2000x1_1_0_0_1_n_n.contr.Idx) : (dot_S2000x256_S256x1_S2000x1_1_0_0_1_n_n.rhsIdx i k 1).val = (i 1).val := by
  unfold DotDims.rhsIdx
  rw [dif_neg (show ¬(1 : Fin S256x1.rank) ∈ dot_S2000x256_S256x1_S2000x1_1_0_0_1_n_n.rhsBatch by decide), dif_pos (show (1 : Fin S256x1.rank) ∈ dot_S2000x256_S256x1_S2000x1_1_0_0_1_n_n.rhsNonContracting by decide)]
  rfl

/-- Into a zero accumulator the product of a [2000, 256] block with a [256, 1] matrix has at (p, q) the sum over s of
    l(p, s) · r(s, q). -/
theorem contractOut_apply (l : FVec Ideal S2000x256 .bf16) (r : FVec Ideal S256x1 .bf16) (p : Fin 2000) (q : Fin 1) :
    matmul dot_S2000x256_S256x1_S2000x1_1_0_0_1_n_n none l r (constant (F := Ideal) S2000x1 .f32 0x00000000#32) (ix2 p q)
      = ∑ s : Fin 256, l (ix2 p s) * r (ix2 s q) := by
  show FloatOps.matmul dot_S2000x256_S256x1_S2000x1_1_0_0_1_n_n none l r (constant (F := Ideal) S2000x1 .f32 0x00000000#32) (ix2 p q) = _
  rw [Ideal.matmul_constant_zero_apply, ← Equiv.sum_comp (ValueIdx.contrEquiv1 dot_S2000x256_S256x1_S2000x1_1_0_0_1_n_n 256 rfl rfl).symm]
  refine Finset.sum_congr rfl fun s _ => ?_
  have hs := ValueIdx.contrEquiv1_symm_val dot_S2000x256_S256x1_S2000x1_1_0_0_1_n_n 256 rfl rfl s
  have el : dot_S2000x256_S256x1_S2000x1_1_0_0_1_n_n.lhsIdx (ix2 p q) ((ValueIdx.contrEquiv1 dot_S2000x256_S256x1_S2000x1_1_0_0_1_n_n 256 rfl rfl).symm s) = ix2 p s := funext fun a => Fin.ext (by
    match a with
    | ⟨0, _⟩ => exact contractOut_lhs_row _ _
    | ⟨1, _⟩ => exact (contractOut_lhs_col _ _).trans hs)
  have er : dot_S2000x256_S256x1_S2000x1_1_0_0_1_n_n.rhsIdx (ix2 p q) ((ValueIdx.contrEquiv1 dot_S2000x256_S256x1_S2000x1_1_0_0_1_n_n 256 rfl rfl).symm s) = ix2 s q := funext fun a => Fin.ext (by
    match a with
    | ⟨0, _⟩ => exact (contractOut_rhs_row _ _).trans hs
    | ⟨1, _⟩ => exact contractOut_rhs_col _ _)
  rw [el, er]

/-- The hidden layer of one block of 2000 edges: the entrywise product of the two endpoint blocks against the first
    weights, plus the bias row along the rows, clipped below at the zero word. -/
def hiddenBlock (x0 x1 : Vec Ideal S2000x256 .f32) (x2 : Vec Ideal S256x256 .f32) (x3 : Vec Ideal S1x256 .f32) : FVec Ideal S2000x256 .f32 :=
  maximumf
    (addf
      (matmul dot_S2000x256_S256x256_S2000x256_1_0_0_1_n_n none
        (truncf .bf16 (mulf (shapeCast S2000x256 x0 Gen.shapeCasts_S2000x256_S2000x256) (shapeCast S2000x256 x1 Gen.shapeCasts_S2000x256_S2000x256)) Gen.bitsLt_bf16_f32)
        (truncf .bf16 x2 Gen.bitsLt_bf16_f32) (constant S2000x256 .f32 0x00000000#32))
      (broadcastTo S2000x256 (shapeCast S1x256 x3 Gen.shapeCasts_S1x256_S1x256) Gen.broadcasts_S1x256_S2000x256))
    (broadcast S2000x256 (Scalar.ofBits .f32 0x00000000#32))

/-- The body's payload is the logistic function of the hidden block against the second weights plus the second bias. -/
theorem payload_eq (x0 x1 : Vec Ideal S2000x256 .f32) (x2 : Vec Ideal S256x256 .f32) (x3 : Vec Ideal S1x256 .f32)
    (x4 : Vec Ideal S256x1 .f32) (x5 : Vec Ideal S1x1 .f32) :
    Gen.k3_pay1 x0 x1 x2 x3 x4 x5
      = logistic (addf
          (matmul dot_S2000x256_S256x1_S2000x1_1_0_0_1_n_n none (truncf .bf16 (hiddenBlock x0 x1 x2 x3) Gen.bitsLt_bf16_f32) (truncf .bf16 x4 Gen.bitsLt_bf16_f32)
            (constant S2000x1 .f32 0x00000000#32))
          (broadcastTo S2000x1 (shapeCast S1x1 x5 Gen.shapeCasts_S1x1_S1x1) Gen.broadcasts_S1x1_S2000x1)) := rfl

/-- The hidden block at (p, q): max (sum_s x0(p,s) · x1(p,s) · x2(s,q) + x3(0,q), zero). -/
theorem hiddenBlock_apply (x0 x1 : Vec Ideal S2000x256 .f32) (x2 : Vec Ideal S256x256 .f32) (x3 : Vec Ideal S1x256 .f32)
    (p : Fin 2000) (q : Fin 256) :
    hiddenBlock x0 x1 x2 x3 (ix2 p q)
      = max (∑ s : Fin 256, x0 (ix2 p s) * x1 (ix2 p s) * x2 (ix2 s q) + x3 (ix2 0 q)) zeroWord := by
  unfold hiddenBlock
  rw [maximumf_apply, addf_apply, broadcast_apply, contractHidden_apply]
  simp only [truncf_apply, mulf_apply, shapeCast_self]
  rw [broadcastTo_apply x3 Gen.broadcasts_S1x256_S2000x256 (ix2 p q) (ix2 0 q) (fun a => by
    match a with
    | ⟨0, _⟩ => rfl
    | ⟨1, _⟩ => rfl)]
  rfl

/-- The payload at row p of the block. -/
theorem payload_apply (x0 x1 : Vec Ideal S2000x256 .f32) (x2 : Vec Ideal S256x256 .f32) (x3 : Vec Ideal S1x256 .f32)
    (x4 : Vec Ideal S256x1 .f32) (x5 : Vec Ideal S1x1 .f32) (p : Fin 2000) :
    Gen.k3_pay1 x0 x1 x2 x3 x4 x5 (ix2 p 0)
      = Ideal.logistic (∑ t : Fin 256, hiddenBlock x0 x1 x2 x3 (ix2 p t) * x4 (ix2 t 0) + x5 (ix2 0 0)) := by
  rw [payload_eq]
  show FloatOps.logistic _ = _
  rw [Ideal.logistic_def, addf_apply, contractOut_apply]
  simp only [truncf_apply, shapeCast_self]
  rw [broadcastTo_apply x5 Gen.broadcasts_S1x1_S2000x1 (ix2 p 0) (ix2 0 0) (fun a => by
    match a with
    | ⟨0, _⟩ => rfl
    | ⟨1, _⟩ => rfl)]

/-- A row of the payload against the specification: if the two row blocks hold rows r0 … of the endpoint arrays and the
    four small operands are the parameters themselves, the payload at row p is the predictor at row r. -/
theorem block_point (A B : Mat 200000 256) (W1 : Mat 256 256) (b1 : Mat 1 256) (W2 : Mat 256 1) (b2 : Mat 1 1)
    (x0 x1 : Vec Ideal S2000x256 .f32) (x2 : Vec Ideal S256x256 .f32) (x3 : Vec Ideal S1x256 .f32)
    (x4 : Vec Ideal S256x1 .f32) (x5 : Vec Ideal S1x1 .f32) (p : Fin 2000) (r : Fin 200000)
    (h0 : ∀ s : Fin 256, x0 (ix2 p s) = A (ix2 r s)) (h1 : ∀ s : Fin 256, x1 (ix2 p s) = B (ix2 r s))
    (h2 : ∀ (s q : Fin 256), x2 (ix2 s q) = W1 (ix2 s q)) (h3 : ∀ q : Fin 256, x3 (ix2 0 q) = b1 (ix2 0 q))
    (h4 : ∀ s : Fin 256, x4 (ix2 s 0) = W2 (ix2 s 0)) (h5 : x5 (ix2 0 0) = b2 (ix2 0 0)) :
    Gen.k3_pay1 x0 x1 x2 x3 x4 x5 (ix2 p 0)
      = predictor A B W1 (fun q => b1 (ix2 0 q)) W2 (b2 (ix2 0 0)) (ix2 r 0) := by
  rw [payload_apply]
  simp only [hiddenBlock_apply, h0, h1, h2, h3, h4, h5]
  rfl

/-! ## From the blocks to the array -/

theorem zeroOffset : (![0, 0] : Fin 2 → Nat) = fun _ => 0 := funext fun a => by fin_cases a <;> rfl

/-- The index maps, decided over the grid: the three row-blocked windows sit at block row t, the four small operands
    at block (0, 0). -/
theorem index_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

variable (V : (c : Dev nD) → (b : Ref sig .tc) → Buf (Elt Ideal) ((c : Thread nD τ).loc b))

/-- What point t writes back is block t of the predictor of the arrays as the region finds them. -/
theorem flushed_eq (c : Dev nD) (t : Fin cfg3.N) :
    (Gen.dat3 (F := Ideal) V c).flushed 6 t
      = ((cfg3.win 6).blk t).view.read (Elt Ideal)
          (predictor (V c main_v106) (V c main_v115) (V c main_arg11) (fun q => V c main_v116 (ix2 0 q))
            (V c main_arg13) (V c main_v117 (ix2 0 0))) := by
  show (cfg3.win 6).cut (grid3.coords t) ((Gen.dat3 (F := Ideal) V c).after 6 t) = _
  rw [Gen.after3_6]
  unfold Gen.out3_6
  rw [View.canon_unit_zero zeroOffset]
  simp only [View.ld_unit_zero (S := S2000x256) zeroOffset, View.ld_unit_zero (S := S256x256) zeroOffset,
    View.ld_unit_zero (S := S1x256) zeroOffset, View.ld_unit_zero (S := S256x1) zeroOffset,
    View.ld_unit_zero (S := S1x1) zeroOffset]
  obtain ⟨a0, a1, b0, b1, c0, c1, d0, d1, e0, e1, f0, f1, g0, g1⟩ := index_facts t
  have ht : t.val < 100 := t.isLt
  funext j
  have hj0 : (j 0).val < 2000 := (j 0).isLt
  have hj1 : (j 1).val < 1 := (j 1).isLt
  have hr : t.val * 2000 + (j 0).val < 200000 := by omega
  have hL : (cfg3.win 6).xinj (grid3.coords t) j = ix2 ⟨(j 0).val, hj0⟩ 0 := funext fun a => Fin.ext (by
    match a with
    | ⟨0, _⟩ => rfl
    | ⟨1, _⟩ => show (j 1).val = 0; omega)
  have hR : ((cfg3.win 6).blk t).view.emb j = ix2 ⟨t.val * 2000 + (j 0).val, hr⟩ 0 := funext fun a => Fin.ext (by
    match a with
    | ⟨0, _⟩ => show win3_6.index t (0 : Fin 2) * 2000 + 1 * (j 0).val = t.val * 2000 + (j 0).val; omega
    | ⟨1, _⟩ => show win3_6.index t (1 : Fin 2) * 1 + 1 * (j 1).val = 0; omega)
  show Gen.k3_pay1 (F := Ideal) _ _ _ _ _ _ ((cfg3.win 6).xinj (grid3.coords t) j)
    = predictor (V c main_v106) (V c main_v115) (V c main_arg11) (fun q => V c main_v116 (ix2 0 q))
        (V c main_arg13) (V c main_v117 (ix2 0 0)) (((cfg3.win 6).blk t).view.emb j)
  rw [hL, hR]
  refine block_point (V c main_v106) (V c main_v115) (V c main_arg11) (V c main_v116) (V c main_arg13) (V c main_v117)
    (Gen.iblk3 V c 0 t) (Gen.iblk3 V c 1 t) (Gen.iblk3 V c 2 t) (Gen.iblk3 V c 3 t) (Gen.iblk3 V c 4 t) (Gen.iblk3 V c 5 t)
    ⟨(j 0).val, hj0⟩ ⟨t.val * 2000 + (j 0).val, hr⟩ (fun s => ?_) (fun s => ?_) (fun s q => ?_) (fun q => ?_) (fun s => ?_) ?_
  · show V c main_v106 (((cfg3.win 0).blk t).view.emb (ix2 ⟨(j 0).val, hj0⟩ s)) = _
    refine congrArg _ (funext fun a => Fin.ext ?_)
    match a with
    | ⟨0, _⟩ => show win3_0.index t (0 : Fin 2) * 2000 + 1 * (j 0).val = t.val * 2000 + (j 0).val; omega
    | ⟨1, _⟩ => show win3_0.index t (1 : Fin 2) * 256 + 1 * s.val = s.val; omega
  · show V c main_v115 (((cfg3.win 1).blk t).view.emb (ix2 ⟨(j 0).val, hj0⟩ s)) = _
    refine congrArg _ (funext fun a => Fin.ext ?_)
    match a with
    | ⟨0, _⟩ => show win3_1.index t (0 : Fin 2) * 2000 + 1 * (j 0).val = t.val * 2000 + (j 0).val; omega
    | ⟨1, _⟩ => show win3_1.index t (1 : Fin 2) * 256 + 1 * s.val = s.val; omega
  · show V c main_arg11 (((cfg3.win 2).blk t).view.emb (ix2 s q)) = _
    refine congrArg _ (funext fun a => Fin.ext ?_)
    match a with
    | ⟨0, _⟩ => show win3_2.index t (0 : Fin 2) * 256 + 1 * s.val = s.val; omega
    | ⟨1, _⟩ => show win3_2.index t (1 : Fin 2) * 256 + 1 * q.val = q.val; omega
  · show V c main_v116 (((cfg3.win 3).blk t).view.emb (ix2 0 q)) = _
    refine congrArg _ (funext fun a => Fin.ext ?_)
    match a with
    | ⟨0, _⟩ => show win3_3.index t (0 : Fin 2) * 1 + 1 * 0 = 0; omega
    | ⟨1, _⟩ => show win3_3.index t (1 : Fin 2) * 256 + 1 * q.val = q.val; omega
  · show V c main_arg13 (((cfg3.win 4).blk t).view.emb (ix2 s 0)) = _
    refine congrArg _ (funext fun a => Fin.ext ?_)
    match a with
    | ⟨0, _⟩ => show win3_4.index t (0 : Fin 2) * 256 + 1 * s.val = s.val; omega
    | ⟨1, _⟩ => show win3_4.index t (1 : Fin 2) * 1 + 1 * 0 = 0; omega
  · show V c main_v117 (((cfg3.win 5).blk t).view.emb (ix2 0 0)) = _
    refine congrArg _ (funext fun a => Fin.ext ?_)
    match a with
    | ⟨0, _⟩ => show win3_5.index t (0 : Fin 2) * 1 + 1 * 0 = 0; omega
    | ⟨1, _⟩ => show win3_5.index t (1 : Fin 2) * 1 + 1 * 0 = 0; omega

/-- An index of the output array is in point t's block iff each coordinate is in the block's range on its axis. -/
theorem mem_block (t : Fin cfg3.N) (i : S200000x1.Idx) :
    i ∈ ((cfg3.win 6).blk t).view.set
      ↔ ∀ a : Fin 2, win3_6.index t a * S2000x1.size a ≤ (i a).val ∧ (i a).val < win3_6.index t a * S2000x1.size a + S2000x1.size a := by
  show i ∈ ((View.whole main_v118).slice (win3_6.rect t)).set ↔ _
  rw [View.set_slice_whole, Rect.mem_set_unit]
  exact Iff.rfl

/-- Every row r of the output lies in the block of point r / 2000, which writes back. -/
theorem cover (i : S200000x1.Idx) :
    ∃ t : Fin cfg3.N, (cfg3.win 6).flush t = true ∧ i ∈ ((cfg3.win 6).blk t).view.set := by
  have hi0 : (i 0).val < 200000 := (i 0).isLt
  have hi1 : (i 1).val < 1 := (i 1).isLt
  have hN : (i 0).val / 2000 < cfg3.N := by show (i 0).val / 2000 < 100; omega
  obtain ⟨-, -, -, -, -, -, -, -, -, -, -, -, g0, g1⟩ := index_facts ⟨(i 0).val / 2000, hN⟩
  have g0' : win3_6.index ⟨(i 0).val / 2000, hN⟩ (0 : Fin 2) = (i 0).val / 2000 := g0
  refine ⟨⟨(i 0).val / 2000, hN⟩, Gen.flush3_6 _, ?_⟩
  rw [mem_block]
  intro a
  match a with
  | ⟨0, _⟩ =>
    show win3_6.index ⟨(i 0).val / 2000, hN⟩ (0 : Fin 2) * 2000 ≤ (i 0).val
      ∧ (i 0).val < win3_6.index ⟨(i 0).val / 2000, hN⟩ (0 : Fin 2) * 2000 + 2000
    omega
  | ⟨1, _⟩ =>
    show win3_6.index ⟨(i 0).val / 2000, hN⟩ (1 : Fin 2) * 1 ≤ (i 1).val
      ∧ (i 1).val < win3_6.index ⟨(i 0).val / 2000, hN⟩ (1 : Fin 2) * 1 + 1
    omega

/-- The output array after the region: the predictor of the arrays the region found. -/
theorem array (c : Dev nD) :
    (Gen.dat3 (F := Ideal) V c).arrAt 6 cfg3.N
      = predictor (V c main_v106) (V c main_v115) (V c main_arg11) (fun q => V c main_v116 (ix2 0 q))
          (V c main_arg13) (V c main_v117 (ix2 0 0)) :=
  (Gen.dat3 (F := Ideal) V c).arrAt_eq_of_cover 6 _ (fun t _ => flushed_eq V c t) cover

end Cert.KernelIdeal.Predict

end
-- ==== Proof.RefLayers.lean ====
/-
  The reference's two feature transforms are matrix products.

  Each graph-convolution layer of the reference multiplies the current node features (50000 rows of 256 numbers) by a
  256 x 256 weight matrix with one contraction over the shared axis. Read at an entry (r, q), that contraction is the
  sum over t of (features at (r, t)) times (weights at (t, q)), which is the matrix product of the specification; only
  the way the two index pairs are written differs.
-/
import proofs.«109340_j53635551592510_1_alg».proof.Proof.Gen.ReferenceIdeal.Read
import proofs.«109340_j53635551592510_1_alg».proof.Proof.Spec

noncomputable section

namespace Cert.ReferenceIdeal.RefLayers

open Cert.ReferenceIdeal Cert.ReferenceIdeal.Read Cert.GcnSpec Idealize.ShloMosaic Idealize.ShloMosaic.ValueIdx

variable (x0 x4 : (⟨S50000x128, .f32⟩ : BufTy).Contents (Elt Ideal)) (x1 x2 : (⟨S500000, .i32⟩ : BufTy).Contents (Elt Ideal))
  (x5 x7 : (⟨S256x256, .f32⟩ : BufTy).Contents (Elt Ideal)) (x6 x9 x10 : (⟨S256, .f32⟩ : BufTy).Contents (Elt Ideal))

/-- The left index pair of the first contraction is (row of i, t). -/
theorem left_index_layer1 (i : S50000x256.Idx) (t : Fin 256) : lidx_main_v9 i t = ix2 (rowOf i) t := by
  funext a; match a with | ⟨0, _⟩ => rfl | ⟨1, _⟩ => rfl

/-- The right index pair of the first contraction is (t, column of i). -/
theorem right_index_layer1 (i : S50000x256.Idx) (t : Fin 256) : ridx_main_v9 i t = ix2 t (colOf i) := by
  funext a; match a with | ⟨0, _⟩ => rfl | ⟨1, _⟩ => rfl

/-- The left index pair of the second contraction is (row of i, t). -/
theorem left_index_layer2 (i : S50000x256.Idx) (t : Fin 256) : lidx_main_v72 i t = ix2 (rowOf i) t := by
  funext a; match a with | ⟨0, _⟩ => rfl | ⟨1, _⟩ => rfl

/-- The right index pair of the second contraction is (t, column of i). -/
theorem right_index_layer2 (i : S50000x256.Idx) (t : Fin 256) : ridx_main_v72 i t = ix2 t (colOf i) := by
  funext a; match a with | ⟨0, _⟩ => rfl | ⟨1, _⟩ => rfl

/-- The first layer's transform is the matrix product of the joined features with the first weight matrix. -/
theorem layer1_eq : val_main_v9 (F := Ideal) x0 x4 x5 = mm (val_main_v0 (F := Ideal) x0 x4) x5 := by
  funext i
  rw [val_main_v9_apply]
  generalize val_main_v0 (F := Ideal) x0 x4 = h
  unfold mm
  refine Finset.sum_congr rfl fun t _ => ?_
  rw [left_index_layer1, right_index_layer1]

/-- The second layer's transform is the matrix product of the normalised features with the second weight matrix. -/
theorem layer2_eq : val_main_v72 (F := Ideal) x0 x1 x2 x4 x5 x6 x7 x9 x10
    = mm (val_main_v71 (F := Ideal) x0 x1 x2 x4 x5 x6 x9 x10) x7 := by
  funext i
  rw [val_main_v72_apply]
  generalize val_main_v71 (F := Ideal) x0 x1 x2 x4 x5 x6 x9 x10 = h
  unfold mm
  refine Finset.sum_congr rfl fun t _ => ?_
  rw [left_index_layer2, right_index_layer2]

end Cert.ReferenceIdeal.RefLayers

end
-- ==== Proof.RefNormalise.lean ====
/-
  The reference's normalisation stage, read entry by entry.

  Between the two graph-convolution layers the reference takes the array h of hidden features (one row per node), the
  vector of column means and the vector of column variances, and computes, for row r and column q,

      max ((h(r, q) − mean q) · (var q + ε)^(−1/2) · γ q + β q, 0).

  It does so on whole arrays: every vector is first copied along a new unit row axis and then along all the rows, the
  offset ε and the zero are scalars copied to every entry, and the arithmetic is entrywise. Read at one entry (r, q) each
  copy is its source at column q, so the stage is the normalisation of the specification applied to h, the means, the
  variances, γ and β. The two float words ε and 0 are the same words on both sides and are never evaluated.
-/
import proofs.«109340_j53635551592510_1_alg».proof.Proof.Gen.ReferenceIdeal.Read
import proofs.«109340_j53635551592510_1_alg».proof.Proof.Spec

noncomputable section

namespace Cert.ReferenceIdeal.RefNormalise

open Cert.ReferenceIdeal Cert.ReferenceIdeal.Read Cert.GcnSpec Idealize.ShloMosaic Idealize.ShloMosaic.ValueIdx

variable (x0 x4 : (⟨S50000x128, .f32⟩ : BufTy).Contents (Elt Ideal)) (x1 x2 : (⟨S500000, .i32⟩ : BufTy).Contents (Elt Ideal))
  (x5 : (⟨S256x256, .f32⟩ : BufTy).Contents (Elt Ideal)) (x6 x9 x10 : (⟨S256, .f32⟩ : BufTy).Contents (Elt Ideal))

/-- A vector copied along a unit row axis and then along every row, read at an entry, is read at the entry's column:
    the composite of the two index maps is the column of the entry. -/
theorem column_of_copies (i : S50000x256.Idx) :
    idx_main_v56 (idx_main_v57 i) = ix1 (colOf i) ∧ idx_main_v62 (idx_main_v63 i) = ix1 (colOf i)
      ∧ idx_main_v65 (idx_main_v66 i) = ix1 (colOf i) ∧ idx_main_v68 (idx_main_v69 i) = ix1 (colOf i) :=
  ⟨funext fun a => Fin.ext (by match a with | ⟨0, _⟩ => rfl), funext fun a => Fin.ext (by match a with | ⟨0, _⟩ => rfl),
    funext fun a => Fin.ext (by match a with | ⟨0, _⟩ => rfl), funext fun a => Fin.ext (by match a with | ⟨0, _⟩ => rfl)⟩

/-- The reference's normalisation stage is the specification's normalisation of the hidden features by the column
    means and variances, with scale γ and shift β. -/
theorem normalise_eq : val_main_v71 (F := Ideal) x0 x1 x2 x4 x5 x6 x9 x10
    = bnRelu (val_main_v45 (F := Ideal) x0 x1 x2 x4 x5 x6) (fun q => val_main_v48 (F := Ideal) x0 x1 x2 x4 x5 x6 (ix1 q))
        (fun q => val_main_v55 (F := Ideal) x0 x1 x2 x4 x5 x6 (ix1 q)) (fun q => x9 (ix1 q)) (fun q => x10 (ix1 q)) := by
  funext i
  rw [val_main_v71_apply, val_main_v70_apply, val_main_v67_apply, val_main_v64_apply, val_main_v58_apply,
    val_main_v57_apply, val_main_v56_apply, val_main_v63_apply, val_main_v62_apply, val_main_v61_apply,
    val_main_v60_apply, val_main_v59_apply, val_main_cst_13_apply, val_main_v66_apply, val_main_v65_apply,
    val_main_v69_apply, val_main_v68_apply, val_main_call0_v0_apply, val_main_call0_cst_apply]
  obtain ⟨e1, e2, e3, e4⟩ := column_of_copies i
  rw [e1, e2, e3, e4]
  generalize val_main_v45 (F := Ideal) x0 x1 x2 x4 x5 x6 = h
  generalize val_main_v48 (F := Ideal) x0 x1 x2 x4 x5 x6 = mean
  generalize val_main_v55 (F := Ideal) x0 x1 x2 x4 x5 x6 = var
  rfl

end Cert.ReferenceIdeal.RefNormalise

end
-- ==== Proof.RefPredict.lean ====
/-
  The reference's link predictor, read at an index.

  After the two gathers have produced the endpoint rows a and b of every candidate edge, the reference multiplies
  them entry by entry, contracts the product with the first weight matrix, adds the first bias along the rows,
  takes the maximum with the zero word, contracts the result with the second weight column, adds the one-entry
  second bias, and applies 1 / (1 + e^(-x)) written out as a negation, an exponential, a sum with the word 1.0 and
  a quotient whose numerator is the word 1.0. Over the extended reals each contraction is a finite sum over the
  256 summation positions, every other step acts entry by entry, and the word 1.0 is the number 1; so the entry
  of the result at row r is the logistic function of
      sum_t max (sum_s a(r,s) * b(r,s) * w1(s,t) + b1(t), zero) * w2(t,0) + b2,
  which is the specification's predictor of a, b and the four parameters.

  The only work is bookkeeping of indices: the index each operation reads its operand at is shown to be the
  (row, column) pair the specification names, coordinate by coordinate.
-/
import proofs.«109340_j53635551592510_1_alg».proof.Proof.Gen.ReferenceIdeal.Read
import proofs.«109340_j53635551592510_1_alg».proof.Proof.Spec
import Idealize.ShloMosaic.Lib.IdealHost

noncomputable section

namespace Cert.ReferenceIdeal.RefPredict

open Cert.ReferenceIdeal Cert.ReferenceIdeal.Read Cert.GcnSpec Idealize.ShloMosaic Idealize.ShloMosaic.ValueIdx

variable (x0 x4 : (⟨S50000x128, .f32⟩ : BufTy).Contents (Elt Ideal)) (x1 x2 : (⟨S500000, .i32⟩ : BufTy).Contents (Elt Ideal))
  (x3 : (⟨S2x200000, .i32⟩ : BufTy).Contents (Elt Ideal))
  (x5 x7 x11 : (⟨S256x256, .f32⟩ : BufTy).Contents (Elt Ideal)) (x6 x8 x9 x10 x12 : (⟨S256, .f32⟩ : BufTy).Contents (Elt Ideal))
  (x13 : (⟨S256x1, .f32⟩ : BufTy).Contents (Elt Ideal)) (x14 : (⟨S1, .f32⟩ : BufTy).Contents (Elt Ideal))

/-- The left operand's index of either contraction: the row of the result index, the summation variable as column. -/
theorem rowIndex_hidden (j : S200000x256.Idx) (k : Fin 256) : lidx_main_v128 j k = ix2 (rowOf j) k :=
  funext fun d => match d with | ⟨0, _⟩ => rfl | ⟨1, _⟩ => rfl

theorem colIndex_hidden (j : S200000x256.Idx) (k : Fin 256) : ridx_main_v128 j k = ix2 k (colOf j) :=
  funext fun d => match d with | ⟨0, _⟩ => rfl | ⟨1, _⟩ => rfl

theorem rowIndex_out (j : S200000x1.Idx) (k : Fin 256) : lidx_main_v133 j k = ix2 (rowOf j) k :=
  funext fun d => match d with | ⟨0, _⟩ => rfl | ⟨1, _⟩ => rfl

theorem colIndex_out (j : S200000x1.Idx) (k : Fin 256) : ridx_main_v133 j k = ix2 k (colOf j) :=
  funext fun d => match d with | ⟨0, _⟩ => rfl | ⟨1, _⟩ => rfl

/-- The first bias, broadcast along the rows, is read at the column of the index. -/
theorem biasIndex_hidden (j : S200000x256.Idx) : idx_main_v129 (idx_main_v130 j) = ix1 (colOf j) :=
  funext fun d => match d with | ⟨0, _⟩ => rfl

/-- The second bias has one entry. -/
theorem biasIndex_out (j : S200000x1.Idx) : idx_main_v134 (idx_main_v135 j) = ix1 0 :=
  funext fun d => match d with | ⟨0, _⟩ => rfl

theorem predict_eq : val_main_v142 (F := Ideal) x0 x1 x2 x3 x4 x5 x6 x7 x8 x9 x10 x11 x12 x13 x14
    = predictor (val_main_v117 (F := Ideal) x0 x1 x2 x3 x4 x5 x6 x7 x8 x9 x10) (val_main_v126 (F := Ideal) x0 x1 x2 x3 x4 x5 x6 x7 x8 x9 x10)
        x11 (fun q => x12 (ix1 q)) x13 (x14 (ix1 0)) := by
  funext i
  simp only [val_main_v142_apply, val_main_v141_apply, val_main_cst_26_apply, val_main_v140_apply, val_main_v139_apply,
    val_main_cst_25_apply, val_main_v138_apply, val_main_v137_apply, val_main_v136_apply, val_main_v135_apply,
    val_main_v134_apply, val_main_v133_apply, val_main_v132_apply, val_main_call1_v0_apply, val_main_call1_cst_apply,
    val_main_v131_apply, val_main_v130_apply, val_main_v129_apply, val_main_v128_apply, val_main_v127_apply]
  generalize val_main_v117 (F := Ideal) x0 x1 x2 x3 x4 x5 x6 x7 x8 x9 x10 = a
  generalize val_main_v126 (F := Ideal) x0 x1 x2 x3 x4 x5 x6 x7 x8 x9 x10 = b
  simp only [rowIndex_hidden, colIndex_hidden, rowIndex_out, colIndex_out, biasIndex_hidden, biasIndex_out,
    Ideal.hostDivf_def, Ideal.addf_def, Ideal.hostUnary_exp_def, Ideal.hostNegf_def, Ideal.negf_def,
    Ideal.maximumf_def, Ideal.mulf_def, Ideal.ofBits_def, Ideal.ofBits_one_f32]
  rfl

end Cert.ReferenceIdeal.RefPredict

end
-- ==== Proof.Bridge.lean ====
/-
  The returned array of the program with the four dense stages, as a function of its arguments.

  The array contents at the boundaries between the program's segments are followed from the launch to the return and
  compared, boundary by boundary, with the steps of the other program, which computes everything on whole arrays.
  A stretch of whole-array operations is the same operations in both programs, so it carries agreement of the arrays
  it reads to agreement of the arrays it writes. A pipelined dense stage leaves in its result array a function of its
  operand arrays — the matrix product, the normalisation with clipping, the link predictor — which is the function
  the other program's corresponding operations compute. Chaining these: the features and degree scales agree; hence
  the first projection; hence the first layer's mixed features and their batch statistics; hence the normalised,
  clipped features; hence the second projection; hence the second layer's mixed features and the gathered endpoint
  rows; hence the predictions; and the returned array is the predictions laid out as a vector in both programs.
-/
import proofs.«109340_j53635551592510_1_alg».proof.Proof.Gen.KernelIdeal.Frame
import proofs.«109340_j53635551592510_1_alg».proof.Proof.Gen.ReferenceIdeal.Read
import proofs.«109340_j53635551592510_1_alg».proof.Proof.Spec
import proofs.«109340_j53635551592510_1_alg».proof.Proof.HostFeatures
import proofs.«109340_j53635551592510_1_alg».proof.Proof.HostMix1
import proofs.«109340_j53635551592510_1_alg».proof.Proof.HostMix2
import proofs.«109340_j53635551592510_1_alg».proof.Proof.Layer1Blocks
import proofs.«109340_j53635551592510_1_alg».proof.Proof.Layer2Blocks
import proofs.«109340_j53635551592510_1_alg».proof.Proof.NormaliseBlocks
import proofs.«109340_j53635551592510_1_alg».proof.Proof.PredictBlocks
import proofs.«109340_j53635551592510_1_alg».proof.Proof.RefLayers
import proofs.«109340_j53635551592510_1_alg».proof.Proof.RefNormalise
import proofs.«109340_j53635551592510_1_alg».proof.Proof.RefPredict

noncomputable section

namespace Cert.KernelIdeal.Bridge

open Idealize.ShloMosaic Idealize.ShloMosaic.TcCoe Idealize.SL.Sem Idealize.ShloMosaic.StableHlo Idealize.ShloMosaic.ValueIdx
open Cert.KernelIdeal Cert.KernelIdeal.Gen Cert.GcnSpec
open Cert.ReferenceIdeal.Read (val_main_v0 val_main_v8 val_main_v9 val_main_v45 val_main_v48 val_main_v55 val_main_v71 val_main_v72
  val_main_v117 val_main_v126 val_main_v142 val_main_v143)

variable (m : (ℓ : Loc nD τ sig) → Buf (Elt Ideal) ℓ) (ρ : Dev nD → PrngReg) (c : Dev nD)

/-! ## From the launch to the first projection -/

/-- The feature array when the first dense stage is entered. -/
theorem features : W1 m ρ c (Proc.devRef .tc main_v0) = val_main_v0 (F := Ideal) (m ((c : Thread nD τ).loc main_arg0)) (m ((c : Thread nD τ).loc main_arg4)) :=
  HostFeatures.features (W0 m ρ c)

/-- The degree scales when the first dense stage is entered. -/
theorem degScale1 : W1 m ρ c (Proc.devRef .tc main_v8) = val_main_v8 (F := Ideal) (m ((c : Thread nD τ).loc main_arg1)) :=
  HostFeatures.degScale (W0 m ρ c)

theorem arg1_at1 : W1 m ρ c (Proc.devRef .tc main_arg1) = (m ((c : Thread nD τ).loc main_arg1)) := HostFeatures.kept_arg1 (W0 m ρ c)
theorem arg2_at1 : W1 m ρ c (Proc.devRef .tc main_arg2) = (m ((c : Thread nD τ).loc main_arg2)) := HostFeatures.kept_arg2 (W0 m ρ c)
theorem arg3_at1 : W1 m ρ c (Proc.devRef .tc main_arg3) = (m ((c : Thread nD τ).loc main_arg3)) := HostFeatures.kept_arg3 (W0 m ρ c)
theorem arg5_at1 : W1 m ρ c (Proc.devRef .tc main_arg5) = (m ((c : Thread nD τ).loc main_arg5)) := HostFeatures.kept_arg5 (W0 m ρ c)
theorem arg6_at1 : W1 m ρ c (Proc.devRef .tc main_arg6) = (m ((c : Thread nD τ).loc main_arg6)) := HostFeatures.kept_arg6 (W0 m ρ c)
theorem arg7_at1 : W1 m ρ c (Proc.devRef .tc main_arg7) = (m ((c : Thread nD τ).loc main_arg7)) := HostFeatures.kept_arg7 (W0 m ρ c)
theorem arg8_at1 : W1 m ρ c (Proc.devRef .tc main_arg8) = (m ((c : Thread nD τ).loc main_arg8)) := HostFeatures.kept_arg8 (W0 m ρ c)
theorem arg9_at1 : W1 m ρ c (Proc.devRef .tc main_arg9) = (m ((c : Thread nD τ).loc main_arg9)) := HostFeatures.kept_arg9 (W0 m ρ c)
theorem arg10_at1 : W1 m ρ c (Proc.devRef .tc main_arg10) = (m ((c : Thread nD τ).loc main_arg10)) := HostFeatures.kept_arg10 (W0 m ρ c)
theorem arg11_at1 : W1 m ρ c (Proc.devRef .tc main_arg11) = (m ((c : Thread nD τ).loc main_arg11)) := HostFeatures.kept_arg11 (W0 m ρ c)
theorem arg12_at1 : W1 m ρ c (Proc.devRef .tc main_arg12) = (m ((c : Thread nD τ).loc main_arg12)) := HostFeatures.kept_arg12 (W0 m ρ c)
theorem arg13_at1 : W1 m ρ c (Proc.devRef .tc main_arg13) = (m ((c : Thread nD τ).loc main_arg13)) := HostFeatures.kept_arg13 (W0 m ρ c)
theorem arg14_at1 : W1 m ρ c (Proc.devRef .tc main_arg14) = (m ((c : Thread nD τ).loc main_arg14)) := HostFeatures.kept_arg14 (W0 m ρ c)

/-- THE FIRST PROJECTION: the first dense stage leaves the product of the features and the first weights. -/
theorem projected1 : W2 m ρ c (Proc.devRef .tc main_v9) = val_main_v9 (F := Ideal) (m ((c : Thread nD τ).loc main_arg0)) (m ((c : Thread nD τ).loc main_arg4)) (m ((c : Thread nD τ).loc main_arg5)) := by
  refine (W2_arr m ρ c 2).trans ?_
  rw [Layer1.array (V1 m ρ) c]
  show mm (W1 m ρ c (Proc.devRef .tc main_v0)) (W1 m ρ c (Proc.devRef .tc main_arg5)) = _
  rw [features, arg5_at1]
  exact (Cert.ReferenceIdeal.RefLayers.layer1_eq _ _ _).symm

theorem degScale2 : W2 m ρ c (Proc.devRef .tc main_v8) = val_main_v8 (F := Ideal) (m ((c : Thread nD τ).loc main_arg1)) :=
  (W2_of_ne m ρ c main_v8 (by decide)).trans (degScale1 m ρ c)
theorem arg1_at2 : W2 m ρ c (Proc.devRef .tc main_arg1) = (m ((c : Thread nD τ).loc main_arg1)) := (W2_of_ne m ρ c main_arg1 (by decide)).trans (arg1_at1 m ρ c)
theorem arg2_at2 : W2 m ρ c (Proc.devRef .tc main_arg2) = (m ((c : Thread nD τ).loc main_arg2)) := (W2_of_ne m ρ c main_arg2 (by decide)).trans (arg2_at1 m ρ c)
theorem arg3_at2 : W2 m ρ c (Proc.devRef .tc main_arg3) = (m ((c : Thread nD τ).loc main_arg3)) := (W2_of_ne m ρ c main_arg3 (by decide)).trans (arg3_at1 m ρ c)
theorem arg6_at2 : W2 m ρ c (Proc.devRef .tc main_arg6) = (m ((c : Thread nD τ).loc main_arg6)) := (W2_of_ne m ρ c main_arg6 (by decide)).trans (arg6_at1 m ρ c)
theorem arg7_at2 : W2 m ρ c (Proc.devRef .tc main_arg7) = (m ((c : Thread nD τ).loc main_arg7)) := (W2_of_ne m ρ c main_arg7 (by decide)).trans (arg7_at1 m ρ c)
theorem arg8_at2 : W2 m ρ c (Proc.devRef .tc main_arg8) = (m ((c : Thread nD τ).loc main_arg8)) := (W2_of_ne m ρ c main_arg8 (by decide)).trans (arg8_at1 m ρ c)
theorem arg9_at2 : W2 m ρ c (Proc.devRef .tc main_arg9) = (m ((c : Thread nD τ).loc main_arg9)) := (W2_of_ne m ρ c main_arg9 (by decide)).trans (arg9_at1 m ρ c)
theorem arg10_at2 : W2 m ρ c (Proc.devRef .tc main_arg10) = (m ((c : Thread nD τ).loc main_arg10)) := (W2_of_ne m ρ c main_arg10 (by decide)).trans (arg10_at1 m ρ c)
theorem arg11_at2 : W2 m ρ c (Proc.devRef .tc main_arg11) = (m ((c : Thread nD τ).loc main_arg11)) := (W2_of_ne m ρ c main_arg11 (by decide)).trans (arg11_at1 m ρ c)
theorem arg12_at2 : W2 m ρ c (Proc.devRef .tc main_arg12) = (m ((c : Thread nD τ).loc main_arg12)) := (W2_of_ne m ρ c main_arg12 (by decide)).trans (arg12_at1 m ρ c)
theorem arg13_at2 : W2 m ρ c (Proc.devRef .tc main_arg13) = (m ((c : Thread nD τ).loc main_arg13)) := (W2_of_ne m ρ c main_arg13 (by decide)).trans (arg13_at1 m ρ c)
theorem arg14_at2 : W2 m ρ c (Proc.devRef .tc main_arg14) = (m ((c : Thread nD τ).loc main_arg14)) := (W2_of_ne m ρ c main_arg14 (by decide)).trans (arg14_at1 m ρ c)

/-! ## The first layer's mixing, the batch statistics, and the normalisation -/

theorem mixed1 : W3 m ρ c (Proc.devRef .tc main_v45) = val_main_v45 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) :=
  HostMix1.mixed (W2 m ρ c) _ _ _ _ _ _ (degScale2 m ρ c) (projected1 m ρ c) (arg1_at2 m ρ c) (arg2_at2 m ρ c) (arg6_at2 m ρ c)
theorem means1 : (fun q : Fin 256 => W3 m ρ c (Proc.devRef .tc main_v56) (ix2 0 q)) = fun q => val_main_v48 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (ix1 q) :=
  HostMix1.means (W2 m ρ c) _ _ _ _ _ _ (degScale2 m ρ c) (projected1 m ρ c) (arg1_at2 m ρ c) (arg2_at2 m ρ c) (arg6_at2 m ρ c)
theorem variances1 : (fun q : Fin 256 => W3 m ρ c (Proc.devRef .tc main_v57) (ix2 0 q)) = fun q => val_main_v55 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (ix1 q) :=
  HostMix1.variances (W2 m ρ c) _ _ _ _ _ _ (degScale2 m ρ c) (projected1 m ρ c) (arg1_at2 m ρ c) (arg2_at2 m ρ c) (arg6_at2 m ρ c)
theorem scale1 : (fun q : Fin 256 => W3 m ρ c (Proc.devRef .tc main_v58) (ix2 0 q)) = fun q => (m ((c : Thread nD τ).loc main_arg9)) (ix1 q) :=
  HostMix1.scale (W2 m ρ c) _ (arg9_at2 m ρ c)
theorem shift1 : (fun q : Fin 256 => W3 m ρ c (Proc.devRef .tc main_v59) (ix2 0 q)) = fun q => (m ((c : Thread nD τ).loc main_arg10)) (ix1 q) :=
  HostMix1.shift (W2 m ρ c) _ (arg10_at2 m ρ c)

theorem degScale3 : W3 m ρ c (Proc.devRef .tc main_v8) = val_main_v8 (F := Ideal) (m ((c : Thread nD τ).loc main_arg1)) :=
  (HostMix1.kept_v8 (W2 m ρ c)).trans (degScale2 m ρ c)
theorem arg1_at3 : W3 m ρ c (Proc.devRef .tc main_arg1) = (m ((c : Thread nD τ).loc main_arg1)) := (HostMix1.kept_arg1 (W2 m ρ c)).trans (arg1_at2 m ρ c)
theorem arg2_at3 : W3 m ρ c (Proc.devRef .tc main_arg2) = (m ((c : Thread nD τ).loc main_arg2)) := (HostMix1.kept_arg2 (W2 m ρ c)).trans (arg2_at2 m ρ c)
theorem arg3_at3 : W3 m ρ c (Proc.devRef .tc main_arg3) = (m ((c : Thread nD τ).loc main_arg3)) := (HostMix1.kept_arg3 (W2 m ρ c)).trans (arg3_at2 m ρ c)
theorem arg7_at3 : W3 m ρ c (Proc.devRef .tc main_arg7) = (m ((c : Thread nD τ).loc main_arg7)) := (HostMix1.kept_arg7 (W2 m ρ c)).trans (arg7_at2 m ρ c)
theorem arg8_at3 : W3 m ρ c (Proc.devRef .tc main_arg8) = (m ((c : Thread nD τ).loc main_arg8)) := (HostMix1.kept_arg8 (W2 m ρ c)).trans (arg8_at2 m ρ c)
theorem arg11_at3 : W3 m ρ c (Proc.devRef .tc main_arg11) = (m ((c : Thread nD τ).loc main_arg11)) := (HostMix1.kept_arg11 (W2 m ρ c)).trans (arg11_at2 m ρ c)
theorem arg12_at3 : W3 m ρ c (Proc.devRef .tc main_arg12) = (m ((c : Thread nD τ).loc main_arg12)) := (HostMix1.kept_arg12 (W2 m ρ c)).trans (arg12_at2 m ρ c)
theorem arg13_at3 : W3 m ρ c (Proc.devRef .tc main_arg13) = (m ((c : Thread nD τ).loc main_arg13)) := (HostMix1.kept_arg13 (W2 m ρ c)).trans (arg13_at2 m ρ c)
theorem arg14_at3 : W3 m ρ c (Proc.devRef .tc main_arg14) = (m ((c : Thread nD τ).loc main_arg14)) := (HostMix1.kept_arg14 (W2 m ρ c)).trans (arg14_at2 m ρ c)

/-- THE NORMALISATION: the second dense stage leaves the normalised, scaled, shifted and clipped features. -/
theorem normalised : W4 m ρ c (Proc.devRef .tc main_v60) = val_main_v71 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg9)) (m ((c : Thread nD τ).loc main_arg10)) := by
  refine (W4_arr m ρ c 5).trans ?_
  rw [Normalise.array (V3 m ρ) c]
  show bnRelu (W3 m ρ c (Proc.devRef .tc main_v45)) (fun q => W3 m ρ c (Proc.devRef .tc main_v56) (ix2 0 q)) (fun q => W3 m ρ c (Proc.devRef .tc main_v57) (ix2 0 q))
    (fun q => W3 m ρ c (Proc.devRef .tc main_v58) (ix2 0 q)) (fun q => W3 m ρ c (Proc.devRef .tc main_v59) (ix2 0 q)) = _
  rw [mixed1, means1, variances1, scale1, shift1]
  exact (Cert.ReferenceIdeal.RefNormalise.normalise_eq _ _ _ _ _ _ _ _).symm

theorem degScale4 : W4 m ρ c (Proc.devRef .tc main_v8) = val_main_v8 (F := Ideal) (m ((c : Thread nD τ).loc main_arg1)) :=
  (W4_of_ne m ρ c main_v8 (by decide)).trans (degScale3 m ρ c)
theorem arg1_at4 : W4 m ρ c (Proc.devRef .tc main_arg1) = (m ((c : Thread nD τ).loc main_arg1)) := (W4_of_ne m ρ c main_arg1 (by decide)).trans (arg1_at3 m ρ c)
theorem arg2_at4 : W4 m ρ c (Proc.devRef .tc main_arg2) = (m ((c : Thread nD τ).loc main_arg2)) := (W4_of_ne m ρ c main_arg2 (by decide)).trans (arg2_at3 m ρ c)
theorem arg3_at4 : W4 m ρ c (Proc.devRef .tc main_arg3) = (m ((c : Thread nD τ).loc main_arg3)) := (W4_of_ne m ρ c main_arg3 (by decide)).trans (arg3_at3 m ρ c)
theorem arg7_at4 : W4 m ρ c (Proc.devRef .tc main_arg7) = (m ((c : Thread nD τ).loc main_arg7)) := (W4_of_ne m ρ c main_arg7 (by decide)).trans (arg7_at3 m ρ c)
theorem arg8_at4 : W4 m ρ c (Proc.devRef .tc main_arg8) = (m ((c : Thread nD τ).loc main_arg8)) := (W4_of_ne m ρ c main_arg8 (by decide)).trans (arg8_at3 m ρ c)
theorem arg11_at4 : W4 m ρ c (Proc.devRef .tc main_arg11) = (m ((c : Thread nD τ).loc main_arg11)) := (W4_of_ne m ρ c main_arg11 (by decide)).trans (arg11_at3 m ρ c)
theorem arg12_at4 : W4 m ρ c (Proc.devRef .tc main_arg12) = (m ((c : Thread nD τ).loc main_arg12)) := (W4_of_ne m ρ c main_arg12 (by decide)).trans (arg12_at3 m ρ c)
theorem arg13_at4 : W4 m ρ c (Proc.devRef .tc main_arg13) = (m ((c : Thread nD τ).loc main_arg13)) := (W4_of_ne m ρ c main_arg13 (by decide)).trans (arg13_at3 m ρ c)
theorem arg14_at4 : W4 m ρ c (Proc.devRef .tc main_arg14) = (m ((c : Thread nD τ).loc main_arg14)) := (W4_of_ne m ρ c main_arg14 (by decide)).trans (arg14_at3 m ρ c)

/-! ## The second projection, the second layer's mixing, and the endpoint rows -/

/-- THE SECOND PROJECTION: the third dense stage leaves the product of the normalised features and the second weights. -/
theorem projected2 : W5 m ρ c (Proc.devRef .tc main_v61) = val_main_v72 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10)) := by
  refine (W5_arr m ρ c 2).trans ?_
  rw [Layer2.array (V4 m ρ) c]
  show mm (W4 m ρ c (Proc.devRef .tc main_v60)) (W4 m ρ c (Proc.devRef .tc main_arg7)) = _
  rw [normalised, arg7_at4]
  exact (Cert.ReferenceIdeal.RefLayers.layer2_eq _ _ _ _ _ _ _ _ _).symm

theorem degScale5 : W5 m ρ c (Proc.devRef .tc main_v8) = val_main_v8 (F := Ideal) (m ((c : Thread nD τ).loc main_arg1)) :=
  (W5_of_ne m ρ c main_v8 (by decide)).trans (degScale4 m ρ c)
theorem arg1_at5 : W5 m ρ c (Proc.devRef .tc main_arg1) = (m ((c : Thread nD τ).loc main_arg1)) := (W5_of_ne m ρ c main_arg1 (by decide)).trans (arg1_at4 m ρ c)
theorem arg2_at5 : W5 m ρ c (Proc.devRef .tc main_arg2) = (m ((c : Thread nD τ).loc main_arg2)) := (W5_of_ne m ρ c main_arg2 (by decide)).trans (arg2_at4 m ρ c)
theorem arg3_at5 : W5 m ρ c (Proc.devRef .tc main_arg3) = (m ((c : Thread nD τ).loc main_arg3)) := (W5_of_ne m ρ c main_arg3 (by decide)).trans (arg3_at4 m ρ c)
theorem arg8_at5 : W5 m ρ c (Proc.devRef .tc main_arg8) = (m ((c : Thread nD τ).loc main_arg8)) := (W5_of_ne m ρ c main_arg8 (by decide)).trans (arg8_at4 m ρ c)
theorem arg11_at5 : W5 m ρ c (Proc.devRef .tc main_arg11) = (m ((c : Thread nD τ).loc main_arg11)) := (W5_of_ne m ρ c main_arg11 (by decide)).trans (arg11_at4 m ρ c)
theorem arg12_at5 : W5 m ρ c (Proc.devRef .tc main_arg12) = (m ((c : Thread nD τ).loc main_arg12)) := (W5_of_ne m ρ c main_arg12 (by decide)).trans (arg12_at4 m ρ c)
theorem arg13_at5 : W5 m ρ c (Proc.devRef .tc main_arg13) = (m ((c : Thread nD τ).loc main_arg13)) := (W5_of_ne m ρ c main_arg13 (by decide)).trans (arg13_at4 m ρ c)
theorem arg14_at5 : W5 m ρ c (Proc.devRef .tc main_arg14) = (m ((c : Thread nD τ).loc main_arg14)) := (W5_of_ne m ρ c main_arg14 (by decide)).trans (arg14_at4 m ρ c)

theorem firstRows : W6 m ρ c (Proc.devRef .tc main_v106) = val_main_v117 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  HostMix2.firstRows (W5 m ρ c) _ _ _ _ _ _ _ _ _ _ _ (degScale5 m ρ c) (projected2 m ρ c) (arg1_at5 m ρ c) (arg2_at5 m ρ c) (arg3_at5 m ρ c) (arg8_at5 m ρ c)
theorem secondRows : W6 m ρ c (Proc.devRef .tc main_v115) = val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  HostMix2.secondRows (W5 m ρ c) _ _ _ _ _ _ _ _ _ _ _ (degScale5 m ρ c) (projected2 m ρ c) (arg1_at5 m ρ c) (arg2_at5 m ρ c) (arg3_at5 m ρ c) (arg8_at5 m ρ c)
theorem hiddenBias : (fun q : Fin 256 => W6 m ρ c (Proc.devRef .tc main_v116) (ix2 0 q)) = fun q => (m ((c : Thread nD τ).loc main_arg12)) (ix1 q) :=
  HostMix2.hiddenBias (W5 m ρ c) _ (arg12_at5 m ρ c)
theorem outBias : W6 m ρ c (Proc.devRef .tc main_v117) (ix2 0 0) = (m ((c : Thread nD τ).loc main_arg14)) (ix1 0) :=
  HostMix2.outBias (W5 m ρ c) _ (arg14_at5 m ρ c)
theorem arg11_at6 : W6 m ρ c (Proc.devRef .tc main_arg11) = (m ((c : Thread nD τ).loc main_arg11)) := (HostMix2.kept_arg11 (W5 m ρ c)).trans (arg11_at5 m ρ c)
theorem arg13_at6 : W6 m ρ c (Proc.devRef .tc main_arg13) = (m ((c : Thread nD τ).loc main_arg13)) := (HostMix2.kept_arg13 (W5 m ρ c)).trans (arg13_at5 m ρ c)

/-! ## The predictions and the returned array -/

/-- THE PREDICTIONS: the fourth dense stage leaves the link predictor of the two arrays of endpoint rows. -/
theorem predicted : W7 m ρ c (Proc.devRef .tc main_v118) = val_main_v142 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (W7_arr m ρ c 6).trans ?_
  rw [Predict.array (V6 m ρ) c]
  show predictor (W6 m ρ c (Proc.devRef .tc main_v106)) (W6 m ρ c (Proc.devRef .tc main_v115)) (W6 m ρ c (Proc.devRef .tc main_arg11))
    (fun q => W6 m ρ c (Proc.devRef .tc main_v116) (ix2 0 q)) (W6 m ρ c (Proc.devRef .tc main_arg13)) (W6 m ρ c (Proc.devRef .tc main_v117) (ix2 0 0)) = _
  rw [firstRows, secondRows, arg11_at6, hiddenBias, arg13_at6, outBias]
  exact (Cert.ReferenceIdeal.RefPredict.predict_eq _ _ _ _ _ _ _ _ _ _ _ _ _ _ _).symm

/-- THE RETURNED ARRAY: the predictions laid out as a vector — the other program's result at the same arguments. -/
theorem returned : W8 m ρ c (Proc.devRef .tc main_v119) = val_main_v143 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  show StableHlo.after (hostOps4 (F := Ideal)) (W7 m ρ c) (Proc.devRef .tc main_v119) = _
  after_results
  rw [predicted]
  rfl

end Cert.KernelIdeal.Bridge

end
-- ==== Proof.lean ====
/-
  The two programs compute the same link predictions.

  Both programs score pairs of graph nodes: two graph-convolution layers (project the node features, mix rows along
  the edges with the symmetric degree normalisation, add a bias), a batch normalisation with clipping at zero between
  them, and a two-layer perceptron with a logistic output on the elementwise product of the two endpoints' rows. One
  program runs its four dense stages — the two projections, the normalisation, the predictor — block of rows by
  block of rows; the other computes everything on whole arrays. Read over the extended reals, where rounding to a
  narrower float format is the identity and every operation is the exact one, each dense stage leaves the same
  function of its operand arrays in both programs: a matrix product summed over the whole inner dimension at once,
  so the sums have the same terms in the same arrangement; the normalisation with the same variance offset; the
  logistic function, which one program applies as a single operation and the other spells as 1 / (1 + e^(−x)), its
  definition. The whole-array operations around the stages are the same in both programs. So from memories that agree
  on the arguments both programs end with the same array of predictions, entry by entry; no step uses that the inputs
  are finite. Each program terminates without a fault and leaves its argument arrays as launched; the idealised
  program differs from the word-level one by no rewrite, so nothing is owed for it.
-/
import proofs.«109340_j53635551592510_1_alg».proof.Defs
import proofs.«109340_j53635551592510_1_alg».proof.Proof.Gen.Kernel
import proofs.«109340_j53635551592510_1_alg».proof.Proof.Gen.Kernel.Skeleton
import proofs.«109340_j53635551592510_1_alg».proof.Proof.Gen.Kernel.Launch
import proofs.«109340_j53635551592510_1_alg».proof.Proof.Gen.Kernel.Points
import proofs.«109340_j53635551592510_1_alg».proof.Proof.Gen.Kernel.Frame
import proofs.«109340_j53635551592510_1_alg».proof.Proof.Gen.KernelIdeal
import proofs.«109340_j53635551592510_1_alg».proof.Proof.Gen.KernelIdeal.Skeleton
import proofs.«109340_j53635551592510_1_alg».proof.Proof.Gen.KernelIdeal.Launch
import proofs.«109340_j53635551592510_1_alg».proof.Proof.Gen.KernelIdeal.Points
import proofs.«109340_j53635551592510_1_alg».proof.Proof.Gen.KernelIdeal.Frame
import proofs.«109340_j53635551592510_1_alg».proof.Proof.Gen.ReferenceIdeal
import proofs.«109340_j53635551592510_1_alg».proof.Proof.Gen.Pre_finite_inputs
import proofs.«109340_j53635551592510_1_alg».proof.Proof.Gen.ReferenceIdeal.Run
import proofs.«109340_j53635551592510_1_alg».proof.Proof.Gen.ReferenceIdeal.Read
import proofs.«109340_j53635551592510_1_alg».proof.Proof.KernelRun
import proofs.«109340_j53635551592510_1_alg».proof.Proof.Bridge
import Idealize.ShloMosaic.Adequacy
import Idealize.ShloMosaic.Init

noncomputable section

namespace Cert.Proof

open Idealize.ShloMosaic Idealize.ShloMosaic.TcCoe Idealize.SL.Sem

/-- The word-level program terminates without a fault and leaves its arguments as launched. -/
theorem frame_kernel : Cert.frame_Kernel := fun m ρ _ => Cert.Kernel.Gen.frame m ρ

/-- So does the idealised program. -/
theorem frame_kernelIdeal : Cert.frame_KernelIdeal := fun m ρ _ => Cert.KernelIdeal.Gen.frame m ρ

/-- So does the whole-array program: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealised program is the word-level one with nothing rewritten. -/
theorem preserves : Cert.preserves_Kernel_KernelIdeal := trivial

/-- From memories that agree on the arguments, both programs end with the same array of predictions: the blockwise
    program's returned array is the whole-array program's result term at the same arguments. -/
theorem algebraic : Cert.algebraic_KernelIdeal_ReferenceIdeal := by
  intro m ρ m' ρ' _ hagree
  refine ⟨fun c => Cert.KernelIdeal.Gen.W8 m ρ c (Proc.devRef .tc Cert.KernelIdeal.main_v119),
    Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10, e11, e12, e13, e14⟩ := hagree c
  rw [Cert.ReferenceIdeal.Read.val_main_v143_eq, e0, e1, e2, e3, e4, e5, e6, e7, e8, e9, e10, e11, e12, e13, e14]
  exact (Cert.KernelIdeal.Bridge.returned m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
